-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x16 : Shape := ⟨2, ![48, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S48x16 1) : IVec S_ 1 :=
  let main_c_5 : IVec S_ 1 := constantI S_ 1 1#1
  let main_v17 : IVec S_ 1 := (fun x v => Host.reduce IntOp.andi x v reducesTo_S48x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x48 .f32) (main_arg3 : FVec F S48 .f32) (main_arg4 : FVec F S48x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x48 .f32 := Host.absf main_arg2
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x16 .f32 := Host.absf main_arg4
  let main_cst_4 : FVec F S_ .f32 := constant S_ .f32 0x7F800000#32
  let main_v15 : FVec F S48x16 .f32 := broadcastInDim S48x16 ![] bcast_S_S48x16 main_cst_4
  let main_v16 : IVec S48x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x16 : Shape := ⟨2, ![48, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S10000x128 : Shape := ⟨2, ![10000, 128]⟩
abbrev S10000x48 : Shape := ⟨2, ![10000, 48]⟩
abbrev S1700000x48 : Shape := ⟨2, ![1700000, 48]⟩
abbrev S1x48 : Shape := ⟨2, ![1, 48]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x48, .f32⟩
  | .hbm, ⟨3, _⟩ => ⟨S48, .f32⟩
  | .hbm, ⟨4, _⟩ => ⟨S48x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x48, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x48, .f32⟩
  | .hbm, ⟨59, _⟩ => ⟨S1700000x1, .f32⟩
  | .hbm, ⟨60, _⟩ => ⟨S1700000x48, .f32⟩
  | .hbm, ⟨61, _⟩ => ⟨S1700000x48, .f32⟩
  | .hbm, ⟨62, _⟩ => ⟨S_, .f32⟩
  | .hbm, ⟨63, _⟩ => ⟨S100000x48, .f32⟩
  | .hbm, ⟨64, _⟩ => ⟨S1700000x1, .i32⟩
  | .hbm, ⟨65, _⟩ => ⟨S100000x48, .f32⟩
  | .hbm, ⟨66, _⟩ => ⟨S1x48, .f32⟩
  | .hbm, ⟨67, _⟩ => ⟨S100000x16, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x16, .f32⟩
  | .hbm, ⟨77, _⟩ => ⟨S1700000x1, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S1x16, .f32⟩
  | .hbm, ⟨85, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S1x48, .f32⟩
  | .local _ .vmem, ⟨8, _⟩ => ⟨S48x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S10000x48_S10000x48_0_0 : ∀ a, (![0, 0] : Fin 2 → Nat) a + S10000x48.size a ≤ S10000x48.size a
  h_S10000x48 : 0 < S10000x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  shapeCasts_S48_S1x48 : S48.ShapeCasts S1x48
  shapeCasts_S10000x48_S10000x48 : S10000x48.ShapeCasts S10000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S48x16_S48x16_0_0 : ∀ a, (![0, 0] : Fin 2 → Nat) a + S48x16.size a ≤ S48x16.size a
  h_S48x16 : 0 < S48x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x48_S10000x48_1_0_0_1_n_n_wf : DotDims.WF S10000x128 S128x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S10000x48_S48x16_S10000x16_1_0_0_1_n_n_wf : DotDims.WF S10000x48 S48x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x16.size a ≤ S48x16.size a
  hwx1_2 : ∀ i : grid1.Coords, EltTy.bits .f32 = 32 ∨ (Rect.block (s := S48x16) S48x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x48_S10000x48_1_0_0_1_n_n : DotDims S10000x128 S128x48 S10000x48 where
  lhsContracting := [1]
  rhsContracting := [0]
  lhsNonContracting := [0]
  rhsNonContracting := [1]
  lhsBatch := []
  rhsBatch := []
  wf := dot_S10000x128_S128x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S10000x48_S48x16_S10000x16_1_0_0_1_n_n : DotDims S10000x48 S48x16 S10000x16 where
  lhsContracting := [1]
  rhsContracting := [0]
  lhsNonContracting := [0]
  rhsNonContracting := [1]
  lhsBatch := []
  rhsBatch := []
  wf := dot_S10000x48_S48x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S48x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x16 : Shape := ⟨2, ![48, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S1700000x48 : Shape := ⟨2, ![1700000, 48]⟩
abbrev S1x48 : Shape := ⟨2, ![1, 48]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x48, .f32⟩
  | .hbm, ⟨3, _⟩ => ⟨S48, .f32⟩
  | .hbm, ⟨4, _⟩ => ⟨S48x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x48, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x48, .f32⟩
  | .hbm, ⟨59, _⟩ => ⟨S1700000x1, .f32⟩
  | .hbm, ⟨60, _⟩ => ⟨S1700000x48, .f32⟩
  | .hbm, ⟨61, _⟩ => ⟨S1700000x48, .f32⟩
  | .hbm, ⟨62, _⟩ => ⟨S_, .f32⟩
  | .hbm, ⟨63, _⟩ => ⟨S100000x48, .f32⟩
  | .hbm, ⟨64, _⟩ => ⟨S1700000x1, .i32⟩
  | .hbm, ⟨65, _⟩ => ⟨S100000x48, .f32⟩
  | .hbm, ⟨66, _⟩ => ⟨S1x48, .f32⟩
  | .hbm, ⟨67, _⟩ => ⟨S100000x48, .f32⟩
  | .hbm, ⟨68, _⟩ => ⟨S100000x48, .f32⟩
  | .hbm, ⟨69, _⟩ => ⟨S_, .f32⟩
  | .hbm, ⟨70, _⟩ => ⟨S100000x48, .f32⟩
  | .hbm, ⟨71, _⟩ => ⟨S100000x48, .f32⟩
  | .hbm, ⟨72, _⟩ => ⟨S100000x16, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x16, .f32⟩
  | .hbm, ⟨82, _⟩ => ⟨S1700000x1, .f32⟩
  | .hbm, ⟨83, _⟩ => ⟨S1700000x16, .f32⟩
  | .hbm, ⟨84, _⟩ => ⟨S1700000x16, .f32⟩
  | .hbm, ⟨85, _⟩ => ⟨S_, .f32⟩
  | .hbm, ⟨86, _⟩ => ⟨S100000x16, .f32⟩
  | .hbm, ⟨87, _⟩ => ⟨S1700000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x16, .f32⟩
  | .hbm, ⟨106, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x48_S100000x48_1_0_0_1_n_n_wf : DotDims.WF S100000x128 S128x48 S100000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x16_S100000x16_1_0_0_1_n_n_wf : DotDims.WF S100000x48 S48x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.NamedRun.lean ====
/-
  The idealized kernel program's run with its result named. Its @main is eight segments — three stretches of host
  operations, the first matrix-product region, a stretch, the second matrix-product region, a stretch, the log-softmax
  region — and the buffer contents at each boundary are a fold from the launch memory: `W3` when the first region is
  entered, `W4` when it is left (its output array at what its ten points wrote back), `W5` … `W8`. Every weakly fair
  execution terminates, faults nowhere, and ends with every unscoped buffer at `W8`: in particular the result array at
  `W8` of its buffer, and the six argument arrays as launched.
-/
import proofs.«105810_j64484638982596_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its eight segments, the final state read at the result array and at the six arguments. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.NamedRun

end
-- ==== Proof.HostPrefix.lean ====
/-
  What the first region finds when it is entered. The kernel's program begins with the same host operations as the
  reference: from the edge index array it forms the source list and the destination list (each with the 100000 self
  loops appended), counts the in-degrees by a scatter-add of ones, takes d ↦ d^(-1/2) where the count is positive (an
  outlined select), and multiplies the two gathered factors into one weight per edge. None of these operations reads a
  float argument, so at the first region's entry the three arrays are the reference's own stages of the edge index
  array, and the five float arguments are as launched. The three stretches (before, inside and after the outlined
  select) are read one at a time, each from whatever contents it starts from.
-/
import proofs.«105810_j64484638982596_1_alg».proof.Proof.Gen.KernelIdeal.Frame
import proofs.«105810_j64484638982596_1_alg».proof.Proof.RefRead
import Idealize.ShloMosaic.Lib.StableHlo.Run

noncomputable section

namespace Cert.Gcn.HostSide

open Cert.KernelIdeal Cert.KernelIdeal.Gen
open Idealize.ShloMosaic Idealize.ShloMosaic.TcCoe Idealize.SL.Sem Idealize.ShloMosaic.StableHlo

section Stretches
variable (Wv : Valuation τ sig (Elt Ideal))

/-- The outlined select: the factor where the degree is positive, zero elsewhere. -/
theorem where_factor : StableHlo.after hostOps0_1 Wv (Proc.devRef .tc main_v16)
    = select (Wv (Proc.devRef .tc main_v12)) (Wv (Proc.devRef .tc main_v15))
        (broadcastInDim S100000 ![] Facts₀.bcast_S_S100000 (id (Wv (Proc.devRef .tc main_cst_3)))) := by
  simp only [hostOps0_1]
  after_results_simp
  rfl
theorem where_keep_src : StableHlo.after hostOps0_1 Wv (Proc.devRef .tc main_v3) = Wv (Proc.devRef .tc main_v3) := by
  simp only [hostOps0_1]; after_results_simp
theorem where_keep_dst : StableHlo.after hostOps0_1 Wv (Proc.devRef .tc main_v6) = Wv (Proc.devRef .tc main_v6) := by
  simp only [hostOps0_1]; after_results_simp

/-- The edge weights from the factor and the two lists: the product of the factor gathered at the source and at the
    destination (a negative index counted from the end). -/
theorem weights_of_factor : StableHlo.after hostOps0_2 Wv (Proc.devRef .tc main_v31)
    = mulf (F := Ideal) (φ := .f32)
        (Host.gather gather_S100000_S1700000x1_S1700000_n_0_n_n_0_1_1 (Wv (Proc.devRef .tc main_v16))
          (broadcastInDim S1700000x1 ![0] Facts₀.bcast_S1700000_S1700000x1_0
            (select (cmpi .slt (Wv (Proc.devRef .tc main_v3)) (broadcastInDim S1700000 ![] Facts₀.bcast_S_S1700000 (constantI S_ 32 0#32)))
              (addi (Wv (Proc.devRef .tc main_v3)) (broadcastInDim S1700000 ![] Facts₀.bcast_S_S1700000 (constantI S_ 32 100000#32)))
              (Wv (Proc.devRef .tc main_v3)))))
        (Host.gather gather_S100000_S1700000x1_S1700000_n_0_n_n_0_1_1 (Wv (Proc.devRef .tc main_v16))
          (broadcastInDim S1700000x1 ![0] Facts₀.bcast_S1700000_S1700000x1_0
            (select (cmpi .slt (Wv (Proc.devRef .tc main_v6)) (broadcastInDim S1700000 ![] Facts₀.bcast_S_S1700000 (constantI S_ 32 0#32)))
              (addi (Wv (Proc.devRef .tc main_v6)) (broadcastInDim S1700000 ![] Facts₀.bcast_S_S1700000 (constantI S_ 32 100000#32)))
              (Wv (Proc.devRef .tc main_v6))))) := by
  simp only [hostOps0_2]
  after_results_simp
theorem weights_keep_src : StableHlo.after hostOps0_2 Wv (Proc.devRef .tc main_v3) = Wv (Proc.devRef .tc main_v3) := by
  simp only [hostOps0_2]; after_results_simp
theorem weights_keep_dst : StableHlo.after hostOps0_2 Wv (Proc.devRef .tc main_v6) = Wv (Proc.devRef .tc main_v6) := by
  simp only [hostOps0_2]; after_results_simp

end Stretches

variable (m : (ℓ : Loc nD τ sig) → Buf (Elt Ideal) ℓ) (ρ : Dev nD → PrngReg) (c : Dev nD)

/-- From the launch memory, the opening stretch leaves the reference's stages of the edge index array. -/
theorem open_src : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  simp only [hostOps0]
  after_results_simp
  rfl
theorem open_dst : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  simp only [hostOps0]
  after_results_simp
  rfl
theorem open_positive : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  simp only [hostOps0]
  after_results_simp
  rfl
theorem open_rsqrt : W1 m ρ c (Proc.devRef .tc main_v15)
    = Cert.ReferenceIdeal.ReadP.val_main_v15 (F := Ideal) (m ((c : Thread nD τ).loc main_arg1)) := by
  show StableHlo.after hostOps0 (W0 m ρ c) (Proc.devRef .tc main_v15) = _
  simp only [hostOps0]
  after_results_simp
  rfl
theorem open_zero : W1 m ρ c (Proc.devRef .tc main_cst_3) = Cert.ReferenceIdeal.ReadP.val_main_cst_3 (F := Ideal) := by
  show StableHlo.after hostOps0 (W0 m ρ c) (Proc.devRef .tc main_cst_3) = _
  simp only [hostOps0]
  after_results_simp
  rfl

/-- The source list at the first region's entry is the reference's. -/
theorem entry_src : W3 m ρ c (Proc.devRef .tc main_v3)
    = Cert.ReferenceIdeal.ReadP.val_main_v3 (F := Ideal) (m ((c : Thread nD τ).loc main_arg1)) := by
  rw [show W3 m ρ c (Proc.devRef .tc main_v3) = _ from weights_keep_src (W2 m ρ c),
    show W2 m ρ c (Proc.devRef .tc main_v3) = _ from where_keep_src (W1 m ρ c), open_src]

/-- The destination list at the first region's entry is the reference's. -/
theorem entry_dst : W3 m ρ c (Proc.devRef .tc main_v6)
    = Cert.ReferenceIdeal.ReadP.val_main_v6 (F := Ideal) (m ((c : Thread nD τ).loc main_arg1)) := by
  rw [show W3 m ρ c (Proc.devRef .tc main_v6) = _ from weights_keep_dst (W2 m ρ c),
    show W2 m ρ c (Proc.devRef .tc main_v6) = _ from where_keep_dst (W1 m ρ c), open_dst]

/-- The edge weights at the first region's entry are the reference's. -/
theorem entry_weight : W3 m ρ c (Proc.devRef .tc main_v31)
    = Cert.ReferenceIdeal.ReadP.val_main_v31 (F := Ideal) (m ((c : Thread nD τ).loc main_arg1)) := by
  rw [show W3 m ρ c (Proc.devRef .tc main_v31) = _ from weights_of_factor (W2 m ρ c),
    show W2 m ρ c (Proc.devRef .tc main_v16) = _ from where_factor (W1 m ρ c),
    show W2 m ρ c (Proc.devRef .tc main_v3) = _ from where_keep_src (W1 m ρ c),
    show W2 m ρ c (Proc.devRef .tc main_v6) = _ from where_keep_dst (W1 m ρ c),
    open_src, open_dst, open_positive, open_rsqrt, open_zero]
  rfl

/-- The float arguments are untouched by the opening host operations. -/
theorem entry_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp
theorem entry_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp
theorem entry_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp
theorem entry_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp
theorem entry_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp

end Cert.Gcn.HostSide

end
-- ==== Proof.SpecCore.lean ====
/-
  The pieces of the two-layer graph convolution as whole-array functions on the extended reals, cut where the kernel's
  program is cut, each spelt with the host operations of the reference program:
  `lin1` = x · W1; `spreadAlong48` = spreading along given edge lists and weights on 48 columns (gather the source rows,
  scale each by its edge weight, add into the destination rows of a zero array); `lin2` = agg ↦ relu (agg + b1) · W2;
  `spreadAlong16` the same spreading on 16 columns; `logSoftmaxBias` = agg ↦ log_softmax (agg + b2) over rows of 16.
-/
import proofs.«105810_j64484638982596_1_alg».proof.Proof.Gen.ReferenceIdeal
import Idealize.ShloMosaic.PureOps.Ideal

noncomputable section

namespace Cert.Gcn

open Idealize.ShloMosaic Cert.ReferenceIdeal Cert.ReferenceIdeal.Gen

/-- A float array of the given shape, at a float instance `F` (the certificate reads everything at `F := Ideal`, the
    extended reals). -/
abbrev FArr (F : FTy → Type) (S : Shape) : Type := (⟨S, .f32⟩ : BufTy).Contents (Elt F)
/-- An integer array of the given shape (edge endpoints). -/
abbrev FIArr (F : FTy → Type) (S : Shape) : Type := (⟨S, .i32⟩ : BufTy).Contents (Elt F)
/-- A float array over the extended reals. -/
abbrev Arr (S : Shape) : Type := FArr Ideal S
/-- An integer array, beside arrays over the extended reals. -/
abbrev IArr (S : Shape) : Type := FIArr Ideal S

variable {F : FTy → Type} [FloatOps F]

/-- The first dense layer, x · W1. -/
def lin1 (x : FArr F S100000x128) (W : FArr F S128x48) : FArr F S100000x48 :=
  Host.dotGeneral dot_S100000x128_S128x48_S100000x48_1_0_0_1_n_n none x W

/-- Spreading on 48 columns along GIVEN edge lists: with sources `src`, destinations `dst` and weights `wt` (one entry per
    edge, self loops included), row i of the result is the sum over the edges e with dst e = i of wt e times row (src e)
    of `h` (a negative source counted from the end, as the gather's index normalisation has it). -/
def spreadAlong48 (h : FArr F S100000x48) (src dst : FIArr F S1700000) (wt : FArr F S1700000) : FArr F S100000x48 :=
  Host.scatterAdd scatter_S100000x48_S1700000x1_S1700000x48_1_0_0_1
    (broadcastInDim S100000x48 ![] bcast_S_S100000x48 (constant S_ .f32 0x00000000#32))
    (broadcastInDim S1700000x1 ![0] bcast_S1700000_S1700000x1_0 dst)
    (mulf (Host.gather gather_S100000x48_S1700000x1_S1700000x48_1_0_n_n_0_1_148 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x48 ![0, 1] bcast_S1700000x1_S1700000x48_0_1 (broadcastInDim S1700000x1 ![0] bcast_S1700000_S1700000x1_0 wt)))

/-- The hidden activations relu (agg + b), the bias spread over the rows. -/
def hidden (agg : FArr F S100000x48) (b : FArr F S48) : FArr F S100000x48 :=
  maximumf (addf agg (broadcastInDim S100000x48 ![0, 1] bcast_S1x48_S100000x48_0_1 (broadcastInDim S1x48 ![1] bcast_S48_S1x48_1 b)))
    (broadcastInDim S100000x48 ![] bcast_S_S100000x48 (constant S_ .f32 0x00000000#32))

/-- The second dense layer on the hidden activations, relu (agg + b) · W2. -/
def lin2 (agg : FArr F S100000x48) (b : FArr F S48) (W : FArr F S48x16) : FArr F S100000x16 :=
  Host.dotGeneral dot_S100000x48_S48x16_S100000x16_1_0_0_1_n_n none (hidden agg b) W

/-- Spreading on 16 columns along given edge lists and weights. -/
def spreadAlong16 (h : FArr F S100000x16) (src dst : FIArr F S1700000) (wt : FArr F S1700000) : FArr F S100000x16 :=
  Host.scatterAdd scatter_S100000x16_S1700000x1_S1700000x16_1_0_0_1
    (broadcastInDim S100000x16 ![] bcast_S_S100000x16 (constant S_ .f32 0x00000000#32))
    (broadcastInDim S1700000x1 ![0] bcast_S1700000_S1700000x1_0 dst)
    (mulf (Host.gather gather_S100000x16_S1700000x1_S1700000x16_1_0_n_n_0_1_116 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x16 ![0, 1] bcast_S1700000x1_S1700000x16_0_1 (broadcastInDim S1700000x1 ![0] bcast_S1700000_S1700000x1_0 wt)))

/-- The logits agg + b, the bias spread over the rows. -/
def logits (agg : FArr F S100000x16) (b : FArr F S16) : FArr F S100000x16 :=
  addf agg (broadcastInDim S100000x16 ![0, 1] bcast_S1x16_S100000x16_0_1 (broadcastInDim S1x16 ![1] bcast_S16_S1x16_1 b))

/-- The largest entry of each row (never below −∞). -/
def rowMax (z : FArr F S100000x16) : FArr F S100000 :=
  maximumf (broadcastInDim S100000 ![] bcast_S_S100000 (constant S_ .f32 0xFF800000#32))
    (Host.reduce FloatOps.maximumf z (constant S_ .f32 0xFF800000#32) reducesTo_S100000x16_S100000_d1 h_S_)

/-- Each row moved down by its largest entry. -/
def shifted (z : FArr F S100000x16) : FArr F S100000x16 :=
  subf z (broadcastInDim S100000x16 ![0, 1] bcast_S100000x1_S100000x16_0_1 (broadcastInDim S100000x1 ![0] bcast_S100000_S100000x1_0 (rowMax z)))

/-- The logarithm of each row's sum of exponentials of the moved entries, as a column. -/
def logSumExp (z : FArr F S100000x16) : FArr F S100000x1 :=
  Host.log (broadcastInDim S100000x1 ![0] bcast_S100000_S100000x1_0
    (Host.reduceAdd (Host.exp (shifted z)) (constant S_ .f32 0x00000000#32) reducesTo_S100000x16_S100000_d1 h_S_))

/-- The row-wise log-softmax of z: (z − max) − log Σ exp (z − max). -/
def logSoftmax (z : FArr F S100000x16) : FArr F S100000x16 :=
  subf (shifted z) (broadcastInDim S100000x16 ![0, 1] bcast_S100000x1_S100000x16_0_1 (logSumExp z))

/-- The output layer: log-softmax of agg + b. -/
def logSoftmaxBias (agg : FArr F S100000x16) (b : FArr F S16) : FArr F S100000x16 := logSoftmax (logits agg b)

end Cert.Gcn

end
-- ==== Proof.HostMid.lean ====
/-
  The two stretches of host operations between the regions, read from ANY buffer contents they start from. Each gathers
  the source rows of the preceding region's output, scales each gathered row by its edge weight, and adds the scaled
  rows into the destination rows of a zero array — the spreading step along the edge lists and weights found in the
  buffers — and reshapes a bias vector to a one-row matrix for the next region. It writes none of the edge lists, the
  weights or the arguments.
-/
import proofs.«105810_j64484638982596_1_alg».proof.Proof.Gen.KernelIdeal.Frame
import proofs.«105810_j64484638982596_1_alg».proof.Proof.SpecCore
import Idealize.ShloMosaic.Lib.StableHlo.Run
import Idealize.ShloMosaic.Lib.ValueLayout

noncomputable section

namespace Cert.Gcn.HostSide

open Cert.KernelIdeal Cert.KernelIdeal.Gen
open Idealize.ShloMosaic Idealize.ShloMosaic.TcCoe Idealize.SL.Sem Idealize.ShloMosaic.StableHlo

variable (Wv : Valuation τ sig (Elt Ideal))

/-- After the first middle stretch the aggregated features are the spreading, on 48 columns, of the first region's
    output along the lists and weights in the buffers. -/
theorem mid1_agg : StableHlo.after hostOps1 Wv (Proc.devRef .tc main_v45)
    = Cert.Gcn.spreadAlong48 (Wv (Proc.devRef .tc main_v32)) (Wv (Proc.devRef .tc main_v3)) (Wv (Proc.devRef .tc main_v6))
        (Wv (Proc.devRef .tc main_v31)) := by
  simp only [hostOps1]
  after_results_simp
  rfl

/-- The first bias as a one-row matrix. -/
theorem mid1_bias : StableHlo.after hostOps1 Wv (Proc.devRef .tc main_v46)
    = shapeCast S1x48 (Wv (Proc.devRef .tc main_arg3)) Facts₀.shapeCasts_S48_S1x48 := by
  simp only [hostOps1]
  after_results_simp
  rfl

/-- The first middle stretch keeps the lists, the weights and the arguments it does not write. -/
theorem mid1_keep_src : StableHlo.after hostOps1 Wv (Proc.devRef .tc main_v3) = Wv (Proc.devRef .tc main_v3) := by
  simp only [hostOps1]; after_results_simp
theorem mid1_keep_dst : StableHlo.after hostOps1 Wv (Proc.devRef .tc main_v6) = Wv (Proc.devRef .tc main_v6) := by
  simp only [hostOps1]; after_results_simp
theorem mid1_keep_weight : StableHlo.after hostOps1 Wv (Proc.devRef .tc main_v31) = Wv (Proc.devRef .tc main_v31) := by
  simp only [hostOps1]; after_results_simp
theorem mid1_keep_arg4 : StableHlo.after hostOps1 Wv (Proc.devRef .tc main_arg4) = Wv (Proc.devRef .tc main_arg4) := by
  simp only [hostOps1]; after_results_simp
theorem mid1_keep_arg5 : StableHlo.after hostOps1 Wv (Proc.devRef .tc main_arg5) = Wv (Proc.devRef .tc main_arg5) := by
  simp only [hostOps1]; after_results_simp

/-- After the second middle stretch the aggregated logits are the spreading, on 16 columns, of the second region's
    output along the lists and weights in the buffers. -/
theorem mid2_agg : StableHlo.after hostOps2 Wv (Proc.devRef .tc main_v60)
    = Cert.Gcn.spreadAlong16 (Wv (Proc.devRef .tc main_v47)) (Wv (Proc.devRef .tc main_v3)) (Wv (Proc.devRef .tc main_v6))
        (Wv (Proc.devRef .tc main_v31)) := by
  simp only [hostOps2]
  after_results_simp
  rfl

/-- The second bias as a one-row matrix. -/
theorem mid2_bias : StableHlo.after hostOps2 Wv (Proc.devRef .tc main_v61)
    = shapeCast S1x16 (Wv (Proc.devRef .tc main_arg5)) Facts₀.shapeCasts_S16_S1x16 := by
  simp only [hostOps2]
  after_results_simp
  rfl

end Cert.Gcn.HostSide

end
-- ==== Proof.Spec.lean ====
/-
  The two-layer graph convolution as ONE function of the six arguments. With Â the symmetric-normalised adjacency with
  self loops (Â[i,j] = Σ over edges e from j to i of d_j^(-1/2) · d_i^(-1/2), d the in-degree counted with the loop),

      out = log_softmax (Â · (relu (Â · (x · W1) + b1) · W2) + b2)     (rows of 16).

  The edge lists and the edge weights are the reference's own stages of the edge index array (both programs compute
  them by the same host operations), never opened here; the reference's last stage IS this composition, by unfolding.
-/
import proofs.«105810_j64484638982596_1_alg».proof.Proof.SpecCore
import proofs.«105810_j64484638982596_1_alg».proof.Proof.RefRead

noncomputable section

namespace Cert.Gcn

open Idealize.ShloMosaic Cert.ReferenceIdeal Cert.ReferenceIdeal.Gen Cert.ReferenceIdeal.ReadP

/-- The edge index array: row 0 the sources, row 1 the destinations. -/
abbrev Edges : Type := (⟨S2x1600000, .i32⟩ : BufTy).Contents (Elt Ideal)

/-- Spreading along the graph's own edges on 48 columns. -/
def spread48 (h : Arr S100000x48) (e : Edges) : Arr S100000x48 :=
  spreadAlong48 (F := Ideal) h (val_main_v3 (F := Ideal) e) (val_main_v6 (F := Ideal) e) (val_main_v31 (F := Ideal) e)

/-- Spreading along the graph's own edges on 16 columns. -/
def spread16 (h : Arr S100000x16) (e : Edges) : Arr S100000x16 :=
  spreadAlong16 (F := Ideal) h (val_main_v3 (F := Ideal) e) (val_main_v6 (F := Ideal) e) (val_main_v31 (F := Ideal) e)

/-- The whole network. -/
def net (x : Arr S100000x128) (e : Edges) (W1 : Arr S128x48) (b1 : Arr S48) (W2 : Arr S48x16) (b2 : Arr S16) : Arr S100000x16 :=
  logSoftmaxBias (F := Ideal) (spread16 (lin2 (F := Ideal) (spread48 (lin1 (F := Ideal) x W1) e) b1 W2) e) b2

/-- The reference's stages are this composition: the same host operations, named. -/
theorem reference_eq (x : Arr S100000x128) (e : Edges) (W1 : Arr S128x48) (b1 : Arr S48) (W2 : Arr S48x16) (b2 : Arr S16) :
    val_main_v67 (F := Ideal) x e W1 b1 W2 b2 = net x e W1 b1 W2 b2 := rfl

end Cert.Gcn

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.Region0.lean ====
/-
  Region 0, the first dense layer: the array the first kernel leaves is x · W1.

  The kernel runs over ten grid points. Point t loads rows 10000·t … 10000·t + 9999 of x (a block [10000, 128]) and the
  whole of W1 ([128, 48]), narrows both (the identity on the extended reals), multiplies them on the matrix unit into a
  zero accumulator and writes the [10000, 48] result back as rows 10000·t … 10000·t + 9999 of the output. So entry
  (10000·t + p, j) of the output is Σ_{k<128} x[10000·t + p, k] · W1[k, j], which is entry (10000·t + p, j) of the
  host's dot_general of the whole arrays; the ten row blocks tile the 100000 rows.

  Parts: (1) one block's product at an entry; (2) the whole-array product at an entry; (3) the blocks read off the
  arrays, and what a point writes back as the block of the whole-array product; (4) the ten blocks cover the array.
-/
import proofs.«105810_j64484638982596_1_alg».proof.Proof.Gen.KernelIdeal.Frame
import proofs.«105810_j64484638982596_1_alg».proof.Proof.SpecCore
import proofs.«105810_j64484638982596_1_alg».proof.Proof.LibPlainDot
import Idealize.ShloMosaic.Lib.Pipeline.Value
import Idealize.ShloMosaic.Lib.ValueIdx

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## (1) One block's product at an entry -/

/-- The kernel's product contracts the left operand's columns with the right operand's rows and has no batch axis. -/
theorem block_dims_plain : LibPlainDot.IsPlain dot_S10000x128_S128x48_S10000x48_1_0_0_1_n_n :=
  ⟨rfl, rfl, rfl, rfl, rfl, rfl⟩

/-- Entry (p, j) of the block the body stores is Σ_k x0[p, k] · w[k, j]: the narrowing of the operands is the identity
    on the extended reals and the accumulator is zero. -/
theorem block_product_apply (x0 : FVec Ideal S10000x128 .f32) (w : FVec Ideal S128x48 .f32) (p : Fin 10000) (j : Fin 48) :
    k0_pay1 (F := Ideal) x0 w (ix2 p j) = ∑ k : Fin 128, x0 (ix2 p k) * w (ix2 k j) := by
  unfold k0_pay1
  refine (LibPlainDot.matmul_zero_apply (φ₁ := .bf16) (φ₂ := .bf16) dot_S10000x128_S128x48_S10000x48_1_0_0_1_n_n
    block_dims_plain none (truncf (F := Ideal) .bf16 x0 bitsLt_bf16_f32) (truncf (F := Ideal) .bf16 w bitsLt_bf16_f32) p j).trans ?_
  rfl

/-! ## (2) The whole-array product at an entry -/

/-- The host's product has the same dimension numbers. -/
theorem array_dims_plain : LibPlainDot.IsPlain Cert.ReferenceIdeal.dot_S100000x128_S128x48_S100000x48_1_0_0_1_n_n :=
  ⟨rfl, rfl, rfl, rfl, rfl, rfl⟩

/-- Entry (r, j) of x · W is Σ_k x[r, k] · W[k, j]. -/
theorem lin1_apply (x : Arr Cert.ReferenceIdeal.S100000x128) (W : Arr Cert.ReferenceIdeal.S128x48) (r : Fin 100000) (j : Fin 48) :
    lin1 (F := Ideal) x W (ix2 r j) = ∑ k : Fin 128, x (ix2 r k) * W (ix2 k j) := by
  unfold lin1
  exact LibPlainDot.dotGeneral_apply (φ₁ := .f32) (φ₂ := .f32) Cert.ReferenceIdeal.dot_S100000x128_S128x48_S100000x48_1_0_0_1_n_n
    array_dims_plain none .single x W r j

/-- A block of rows of x times W is the same rows of x · W: if x0's row p is x's row r, then entry (p, j) of the block
    product is entry (r, j) of the whole product. -/
theorem block_entry (x : Arr Cert.ReferenceIdeal.S100000x128) (W : Arr Cert.ReferenceIdeal.S128x48)
    (x0 : FVec Ideal S10000x128 .f32) (p : Fin 10000) (r : Fin 100000)
    (hx : ∀ k : Fin 128, x0 (ix2 p k) = x (ix2 r k)) (j : Fin 48) :
    k0_pay1 (F := Ideal) x0 W (ix2 p j) = lin1 (F := Ideal) x W (ix2 r j) := by
  rw [block_product_apply, lin1_apply]
  exact Finset.sum_congr rfl fun k _ => by rw [hx k]

/-! ## (3) The blocks, and what a point writes back -/

variable (V : (c : Dev nD) → (b : Ref sig .tc) → Buf (Elt Ideal) ((c : Thread nD τ).loc b))

/-- The offsets of a whole-buffer access are zero on both axes. -/
theorem zero_offsets : (![0, 0] : Fin 2 → Nat) = fun _ => 0 := funext fun a => by fin_cases a <;> rfl

/-- The index maps, decided over the ten points: x's and the output's block index at point t is (t, 0), W1's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are ten points. -/
theorem point_lt (t : Fin cfg0.N) : t.val < 10 :=
  Nat.lt_of_lt_of_eq t.isLt (show cfg0.N = 10 from N_0)

/-- x's block at point t, entry (p, k), is x at row 10000·t + p, column k. -/
theorem x_block_apply (c : Dev nD) (t : Fin cfg0.N) (p : Fin 10000) (k : Fin 128) (r : Fin 100000)
    (hr : r.val = 10000 * t.val + p.val) :
    (iblk0 (F := Ideal) V c 0 t : FVec Ideal S10000x128 .f32) (ix2 p k) = (V c main_arg0 : Arr Cert.ReferenceIdeal.S100000x128) (ix2 r k) := by
  obtain ⟨e0, e1, -⟩ := idx_facts t
  show V c main_arg0 (((cfg0.win 0).blk t).view.emb (ix2 p k)) = V c main_arg0 (ix2 r k)
  have h : ((cfg0.win 0).blk t).view.emb (ix2 p k) = ix2 r k := by
    funext a; apply Fin.ext
    match a with
    | ⟨0, _⟩ => show win0_0.index t (0 : Fin 2) * 10000 + 1 * p.val = r.val; omega
    | ⟨1, _⟩ => show win0_0.index t (1 : Fin 2) * 128 + 1 * k.val = k.val; omega
  rw [h]

/-- W1's block at every point is W1. -/
theorem w_block (c : Dev nD) (t : Fin cfg0.N) :
    (iblk0 (F := Ideal) V c 1 t : FVec Ideal S128x48 .f32) = (V c main_arg2 : Arr Cert.ReferenceIdeal.S128x48) := by
  obtain ⟨-, -, e2, e3, -⟩ := idx_facts t
  refine funext fun (y : S128x48.Idx) => ?_
  show V c main_arg2 (((cfg0.win 1).blk t).view.emb y) = V c main_arg2 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 48 + 1 * (y 1).val = (y 1).val; omega
  rw [h]

/-- Entry (p, j) of what point t stores is entry (10000·t + p, j) of x · W1. -/
theorem stored_entry (c : Dev nD) (t : Fin cfg0.N) (p : Fin 10000) (j : Fin 48) (r : Fin 100000)
    (hr : r.val = 10000 * t.val + p.val) :
    k0_pay1 (F := Ideal) (iblk0 V c 0 t) (iblk0 V c 1 t) (ix2 p j) = lin1 (F := Ideal) (V c main_arg0) (V c main_arg2) (ix2 r j) := by
  rw [w_block V c t]
  exact block_entry (V c main_arg0) (V c main_arg2) (iblk0 V c 0 t) p r (fun k => x_block_apply V c t p k r hr) j

/-- What point t writes back is the block at t of x · W1. -/
theorem flushed_eq (c : Dev nD) (t : Fin cfg0.N) :
    (dat0 (F := Ideal) V c).flushed 2 t
      = ((cfg0.win 2).blk t).view.read (Elt Ideal) (lin1 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x48) zero_offsets]
  obtain ⟨-, -, -, -, e4, e5⟩ := idx_facts t
  have ht := point_lt t
  refine funext fun (y : S10000x48.Idx) => ?_
  obtain ⟨p, j, rfl⟩ : ∃ (p : Fin 10000) (j : Fin 48), y = ix2 p j := ⟨y 0, y 1, eq_ix2 y⟩
  have hp := p.isLt
  have h : ((cfg0.win 2).blk t).view.emb (ix2 p j) = ix2 (⟨10000 * t.val + p.val, by omega⟩ : Fin 100000) j := by
    funext a; apply Fin.ext
    match a with
    | ⟨0, _⟩ => show win0_2.index t (0 : Fin 2) * 10000 + 1 * p.val = 10000 * t.val + p.val; omega
    | ⟨1, _⟩ => show win0_2.index t (1 : Fin 2) * 48 + 1 * j.val = j.val; omega
  show k0_pay1 (F := Ideal) (iblk0 V c 0 t) (iblk0 V c 1 t) (ix2 p j)
    = lin1 (F := Ideal) (V c main_arg0) (V c main_arg2) (((cfg0.win 2).blk t).view.emb (ix2 p j))
  rw [h]
  exact stored_entry V c t p j _ rfl

/-! ## (4) The ten row blocks cover the array -/

/-- An index of the array is in point t's block iff each coordinate is in the block's range on its axis. -/
theorem mem_block (t : Fin cfg0.N) (i : S100000x48.Idx) :
    i ∈ ((cfg0.win 2).blk t).view.set ↔ ∀ a : Fin 2, win0_2.index t a * S10000x48.size a ≤ (i a).val
      ∧ (i a).val < win0_2.index t a * S10000x48.size a + S10000x48.size a := by
  show i ∈ ((View.whole main_v32).slice (win0_2.rect t)).set ↔ _
  rw [View.set_slice_whole, Rect.mem_set_unit]
  exact Iff.rfl

/-- Row r lies in the block of point r / 10000, and every point writes back. -/
theorem cover (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e4, e5⟩ := idx_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 48 ≤ (i 1).val ∧ (i 1).val < win0_2.index t (1 : Fin 2) * 48 + 48
    omega

/-- The array the first kernel leaves is x · W1. -/
theorem value (c : Dev nD) :
    (dat0 (F := Ideal) V c).arrAt 2 cfg0.N = lin1 (F := Ideal) (V c main_arg0) (V c main_arg2) :=
  (dat0 (F := Ideal) V c).arrAt_eq_of_cover 2 (lin1 (F := Ideal) (V c main_arg0) (V c main_arg2))
    (fun t _ => flushed_eq V c t) cover

end Cert.Gcn.Region0

end
-- ==== Proof.Region1.lean ====
/-
  Region 1, the second dense layer on the hidden activations: the array the second kernel leaves is
  relu (agg + b1) · W2, the bias b1 spread over the rows.

  The kernel runs over ten grid points. Point t loads rows 10000·t … 10000·t + 9999 of the aggregated features agg
  (a block [10000, 48]), the bias as a row [1, 48] and the whole of W2 ([48, 16]); it adds the bias row to every row of
  the block, takes the maximum with zero, narrows (the identity on the extended reals), multiplies by W2 on the matrix
  unit into a zero accumulator and writes the [10000, 16] result back as rows 10000·t … 10000·t + 9999 of the output.
  So entry (10000·t + p, j) of the output is Σ_{k<48} max (agg[10000·t + p, k] + b1[k], 0) · W2[k, j], which is entry
  (10000·t + p, j) of the host's dot_general of relu (agg + b1) with W2; the ten row blocks tile the 100000 rows.

  Parts: (1) one block's product at an entry; (2) the whole-array product at an entry; (3) the blocks read off the
  arrays, and what a point writes back as the block of the whole-array product; (4) the ten blocks cover the array.
-/
import proofs.«105810_j64484638982596_1_alg».proof.Proof.Gen.KernelIdeal.Frame
import proofs.«105810_j64484638982596_1_alg».proof.Proof.SpecCore
import proofs.«105810_j64484638982596_1_alg».proof.Proof.LibPlainDot
import Idealize.ShloMosaic.Lib.Pipeline.Value
import Idealize.ShloMosaic.Lib.ValueIdx
import Idealize.ShloMosaic.Lib.ValueLayout

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

/-- relu (a + b) on the extended reals: the larger of a + b and the value of the zero word, which both programs spell
    with the same word (so it is never evaluated). -/
def reluAdd (a b : EReal) : EReal := max (a + b) (Ideal.ofBits .f32 0x00000000#32)

/-! ## (1) One block's product at an entry -/

/-- The kernel's product contracts the left operand's columns with the right operand's rows and has no batch axis. -/
theorem block_dims_plain : LibPlainDot.IsPlain dot_S10000x48_S48x16_S10000x16_1_0_0_1_n_n :=
  ⟨rfl, rfl, rfl, rfl, rfl, rfl⟩

/-- Entry (p, j) of the block the body stores is Σ_k relu (x0[p, k] + bias[0, k]) · w[k, j]: the casts to the same
    shape and the narrowing are the identity, the bias row is read at row 0 whatever p, the accumulator is zero. -/
theorem block_product_apply (x0 : FVec Ideal S10000x48 .f32) (bias : FVec Ideal S1x48 .f32) (w : FVec Ideal S48x16 .f32)
    (p : Fin 10000) (j : Fin 16) :
    k1_pay1 (F := Ideal) x0 bias w (ix2 p j)
      = ∑ k : Fin 48, reluAdd (x0 (ix2 p k)) (bias (ix2 (0 : Fin 1) k)) * w (ix2 k j) := by
  unfold k1_pay1
  refine (LibPlainDot.matmul_zero_apply (φ₁ := .bf16) (φ₂ := .bf16) dot_S10000x48_S48x16_S10000x16_1_0_0_1_n_n
    block_dims_plain none _ _ p j).trans ?_
  refine Finset.sum_congr rfl fun k _ => ?_
  refine congrArg (· * w (ix2 k j)) ?_
  rw [truncf_apply, maximumf_apply, addf_apply, broadcast_apply, shapeCast_self, shapeCast_self,
    broadcastTo_1b_ab_apply]
  rfl

/-! ## (2) The whole-array product at an entry -/

/-- The host's product has the same dimension numbers. -/
theorem array_dims_plain : LibPlainDot.IsPlain Cert.ReferenceIdeal.dot_S100000x48_S48x16_S100000x16_1_0_0_1_n_n :=
  ⟨rfl, rfl, rfl, rfl, rfl, rfl⟩

/-- Entry (r, k) of the hidden activations is relu (agg[r, k] + b[k]): the bias is spread first to a row [1, 48], then
    over the 100000 rows, and the zero is spread from a scalar. -/
theorem hidden_apply (agg : Arr Cert.ReferenceIdeal.S100000x48) (b : Arr Cert.ReferenceIdeal.S48) (r : Fin 100000) (k : Fin 48) :
    hidden (F := Ideal) agg b (ix2 r k) = reluAdd (agg (ix2 r k)) (b (ix1 k)) := by
  unfold hidden
  rw [maximumf_apply, addf_apply]
  refine congrArg₂ max (congrArg (agg (ix2 r k) + ·) ?_) ?_
  · refine (broadcastInDim_apply _ _ _ (ix2 r k) (ix2 (0 : Fin 1) k) (fun a => match a with
      | ⟨0, _⟩ => by show 0 = if (1 : Nat) = 1 then 0 else r.val; rw [if_pos rfl]
      | ⟨1, _⟩ => by show k.val = if (48 : Nat) = 1 then 0 else k.val; rw [if_neg (by decide)])).trans ?_
    exact broadcastInDim_apply _ _ b (ix2 (0 : Fin 1) k) (ix1 k) (fun a => match a with
      | ⟨0, _⟩ => by show k.val = if (48 : Nat) = 1 then 0 else k.val; rw [if_neg (by decide)])
  · exact broadcastInDim_apply _ _ _ (ix2 r k) ix0 (fun a => a.elim0)

/-- Entry (r, j) of relu (agg + b) · W is Σ_k relu (agg[r, k] + b[k]) · W[k, j]. -/
theorem lin2_apply (agg : Arr Cert.ReferenceIdeal.S100000x48) (b : Arr Cert.ReferenceIdeal.S48) (W : Arr Cert.ReferenceIdeal.S48x16)
    (r : Fin 100000) (j : Fin 16) :
    lin2 (F := Ideal) agg b W (ix2 r j) = ∑ k : Fin 48, reluAdd (agg (ix2 r k)) (b (ix1 k)) * W (ix2 k j) := by
  unfold lin2
  refine (LibPlainDot.dotGeneral_apply (φ₁ := .f32) (φ₂ := .f32) Cert.ReferenceIdeal.dot_S100000x48_S48x16_S100000x16_1_0_0_1_n_n
    array_dims_plain none .single (hidden (F := Ideal) agg b) W r j).trans ?_
  exact Finset.sum_congr rfl fun k _ => by rw [hidden_apply]

/-- A block of rows of agg, through the layer, is the same rows of the whole product: if x0's row p is agg's row r and
    the bias row is b, then entry (p, j) of the block product is entry (r, j) of the whole product. -/
theorem block_entry (agg : Arr Cert.ReferenceIdeal.S100000x48) (b : Arr Cert.ReferenceIdeal.S48) (W : Arr Cert.ReferenceIdeal.S48x16)
    (x0 : FVec Ideal S10000x48 .f32) (bias : FVec Ideal S1x48 .f32) (p : Fin 10000) (r : Fin 100000)
    (hx : ∀ k : Fin 48, x0 (ix2 p k) = agg (ix2 r k)) (hb : ∀ k : Fin 48, bias (ix2 (0 : Fin 1) k) = b (ix1 k)) (j : Fin 16) :
    k1_pay1 (F := Ideal) x0 bias W (ix2 p j) = lin2 (F := Ideal) agg b W (ix2 r j) := by
  rw [block_product_apply, lin2_apply]
  exact Finset.sum_congr rfl fun k _ => by rw [hx k, hb k]

/-! ## (3) The blocks, and what a point writes back -/

variable (V : (c : Dev nD) → (b : Ref sig .tc) → Buf (Elt Ideal) ((c : Thread nD τ).loc b))

/-- The offsets of a whole-buffer access are zero on both axes. -/
theorem zero_offsets : (![0, 0] : Fin 2 → Nat) = fun _ => 0 := funext fun a => by fin_cases a <;> rfl

/-- The index maps, decided over the ten points: agg's and the output's block index at point t is (t, 0), the bias
    row's and W2's is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- There are ten points. -/
theorem point_lt (t : Fin cfg1.N) : t.val < 10 :=
  Nat.lt_of_lt_of_eq t.isLt (show cfg1.N = 10 from N_1)

/-- agg's block at point t, entry (p, k), is agg at row 10000·t + p, column k. -/
theorem agg_block_apply (c : Dev nD) (t : Fin cfg1.N) (p : Fin 10000) (k : Fin 48) (r : Fin 100000)
    (hr : r.val = 10000 * t.val + p.val) :
    (iblk1 (F := Ideal) V c 0 t : FVec Ideal S10000x48 .f32) (ix2 p k) = (V c main_v45 : Arr Cert.ReferenceIdeal.S100000x48) (ix2 r k) := by
  obtain ⟨e0, e1, -⟩ := idx_facts t
  show V c main_v45 (((cfg1.win 0).blk t).view.emb (ix2 p k)) = V c main_v45 (ix2 r k)
  have h : ((cfg1.win 0).blk t).view.emb (ix2 p k) = ix2 r k := by
    funext a; apply Fin.ext
    match a with
    | ⟨0, _⟩ => show win1_0.index t (0 : Fin 2) * 10000 + 1 * p.val = r.val; omega
    | ⟨1, _⟩ => show win1_0.index t (1 : Fin 2) * 48 + 1 * k.val = k.val; omega
  rw [h]

/-- The bias row's block at every point is the bias row. -/
theorem bias_block (c : Dev nD) (t : Fin cfg1.N) :
    (iblk1 (F := Ideal) V c 1 t : FVec Ideal S1x48 .f32) = (V c main_v46 : Arr Cert.ReferenceIdeal.S1x48) := by
  obtain ⟨-, -, e2, e3, -⟩ := idx_facts t
  refine funext fun (y : S1x48.Idx) => ?_
  show V c main_v46 (((cfg1.win 1).blk t).view.emb y) = V c main_v46 y
  have h : ((cfg1.win 1).blk t).view.emb y = y := by
    funext a; apply Fin.ext
    match a with
    | ⟨0, _⟩ => show win1_1.index t (0 : Fin 2) * 1 + 1 * (y 0).val = (y 0).val; omega
    | ⟨1, _⟩ => show win1_1.index t (1 : Fin 2) * 48 + 1 * (y 1).val = (y 1).val; omega
  rw [h]

/-- W2's block at every point is W2. -/
theorem w_block (c : Dev nD) (t : Fin cfg1.N) :
    (iblk1 (F := Ideal) V c 2 t : FVec Ideal S48x16 .f32) = (V c main_arg4 : Arr Cert.ReferenceIdeal.S48x16) := by
  obtain ⟨-, -, -, -, e4, e5, -⟩ := idx_facts t
  refine funext fun (y : S48x16.Idx) => ?_
  show V c main_arg4 (((cfg1.win 2).blk t).view.emb y) = V c main_arg4 y
  have h : ((cfg1.win 2).blk t).view.emb y = y := by
    funext a; apply Fin.ext
    match a with
    | ⟨0, _⟩ => show win1_2.index t (0 : Fin 2) * 48 + 1 * (y 0).val = (y 0).val; omega
    | ⟨1, _⟩ => show win1_2.index t (1 : Fin 2) * 16 + 1 * (y 1).val = (y 1).val; omega
  rw [h]

/-- Entry (p, j) of what point t stores is entry (10000·t + p, j) of relu (agg + b1) · W2, when the bias row the
    region finds holds b1. -/
theorem stored_entry (c : Dev nD) (b1 : Arr Cert.ReferenceIdeal.S48)
    (hb : ∀ k : Fin 48, V c main_v46 (ix2 (0 : Fin 1) k) = b1 (ix1 k))
    (t : Fin cfg1.N) (p : Fin 10000) (j : Fin 16) (r : Fin 100000) (hr : r.val = 10000 * t.val + p.val) :
    k1_pay1 (F := Ideal) (iblk1 V c 0 t) (iblk1 V c 1 t) (iblk1 V c 2 t) (ix2 p j)
      = lin2 (F := Ideal) (V c main_v45) b1 (V c main_arg4) (ix2 r j) := by
  rw [bias_block V c t, w_block V c t]
  exact block_entry (V c main_v45) b1 (V c main_arg4) (iblk1 V c 0 t) (V c main_v46) p r
    (fun k => agg_block_apply V c t p k r hr) hb j

/-- What point t writes back is the block at t of relu (agg + b1) · W2. -/
theorem flushed_eq (c : Dev nD) (b1 : Arr Cert.ReferenceIdeal.S48)
    (hb : ∀ k : Fin 48, V c main_v46 (ix2 (0 : Fin 1) k) = b1 (ix1 k)) (t : Fin cfg1.N) :
    (dat1 (F := Ideal) V c).flushed 3 t
      = ((cfg1.win 3).blk t).view.read (Elt Ideal) (lin2 (F := Ideal) (V c main_v45) b1 (V c main_arg4)) := by
  show (cfg1.win 3).cut (grid1.coords t) ((dat1 V c).after 3 t) = _
  rw [after1_3]
  unfold out1_3
  rw [View.canon_unit_zero zero_offsets]
  simp only [View.ld_unit_zero (S := S10000x48) zero_offsets, View.ld_unit_zero (S := S1x48) zero_offsets,
    View.ld_unit_zero (S := S48x16) zero_offsets]
  obtain ⟨-, -, -, -, -, -, e6, e7⟩ := idx_facts t
  have ht := point_lt t
  refine funext fun (y : S10000x16.Idx) => ?_
  obtain ⟨p, j, rfl⟩ : ∃ (p : Fin 10000) (j : Fin 16), y = ix2 p j := ⟨y 0, y 1, eq_ix2 y⟩
  have hp := p.isLt
  have h : ((cfg1.win 3).blk t).view.emb (ix2 p j) = ix2 (⟨10000 * t.val + p.val, by omega⟩ : Fin 100000) j := by
    funext a; apply Fin.ext
    match a with
    | ⟨0, _⟩ => show win1_3.index t (0 : Fin 2) * 10000 + 1 * p.val = 10000 * t.val + p.val; omega
    | ⟨1, _⟩ => show win1_3.index t (1 : Fin 2) * 16 + 1 * j.val = j.val; omega
  show k1_pay1 (F := Ideal) (iblk1 V c 0 t) (iblk1 V c 1 t) (iblk1 V c 2 t) (ix2 p j)
    = lin2 (F := Ideal) (V c main_v45) b1 (V c main_arg4) (((cfg1.win 3).blk t).view.emb (ix2 p j))
  rw [h]
  exact stored_entry V c b1 hb t p j _ rfl

/-! ## (4) The ten row blocks cover the array -/

/-- An index of the array is in point t's block iff each coordinate is in the block's range on its axis. -/
theorem mem_block (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v47).slice (win1_3.rect t)).set ↔ _
  rw [View.set_slice_whole, Rect.mem_set_unit]
  exact Iff.rfl

/-- Row r lies in the block of point r / 10000, and every point writes back. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, e6, e7⟩ := idx_facts t
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 16 ≤ (i 1).val ∧ (i 1).val < win1_3.index t (1 : Fin 2) * 16 + 16
    omega

/-- The array the second kernel leaves is relu (agg + b1) · W2, when the bias row the region finds holds b1. -/
theorem value (c : Dev nD) (b1 : Arr Cert.ReferenceIdeal.S48)
    (hb : ∀ k : Fin 48, V c main_v46 (ix2 (0 : Fin 1) k) = b1 (ix1 k)) :
    (dat1 (F := Ideal) V c).arrAt 3 cfg1.N = lin2 (F := Ideal) (V c main_v45) b1 (V c main_arg4) :=
  (dat1 (F := Ideal) V c).arrAt_eq_of_cover 3 (lin2 (F := Ideal) (V c main_v45) b1 (V c main_arg4))
    (fun t _ => flushed_eq V c b1 hb t) cover

end Cert.Gcn.Region1

end
-- ==== Proof.LibLanes.lean ====
/-
  Reading a lane reduction with kept dimension at an index, at the ideal instance: the sum (or the maximum) over the lanes of a
  row, cast from a vector of rows to a column, and a column broadcast back over the lanes. General in the two extents.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) (fun d => by
    match d with
    | ⟨0, _⟩ =>
      show p.val = if a = 1 then 0 else p.val
      split
      · have := p.isLt; omega
      · rfl
    | ⟨1, _⟩ => rfl)

/-- The sum over the lanes of row `p`. -/
theorem lane_sum {a b : ℕ} (v : FVec Ideal (⟨2, ![a, b]⟩ : Shape) .f32) (h : (⟨2, ![a, b]⟩ : Shape).Reduces [1] ⟨1, ![a]⟩)
    (hφ : FKind.Formats .f32) (hacc : (0x00000000#32 : BitVec 32) = 0x00000000#32) (p : Fin a) :
    multiReduction .add [1] (⟨1, ![a]⟩ : Shape) v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

/-- The maximum over the lanes of row `p`, from minus infinity. -/
theorem lane_max {a b : ℕ} (v : FVec Ideal (⟨2, ![a, b]⟩ : Shape) .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] (⟨1, ![a]⟩ : Shape) v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (Finset.fold max _ · Finset.univ) (funext fun k => congrArg v (funext fun d => Fin.ext ?_))
  match d with
  | ⟨0, _⟩ => rfl
  | ⟨1, _⟩ => rfl

end Cert.Lib

end
-- ==== Proof.LibHostRows.lean ====
/-
  The host's row reductions of a matrix read at a row, on the extended reals: a `stablehlo.reduce` over axis 1 of an
  `[a, b]` array with an add body is, at row `p`, the initial value plus the sum of the row's entries; with a maximum body,
  the fold of `max` from the initial value over the row's entries. General in the two extents. (The in-kernel
  counterparts, a lane sum and a lane maximum with kept dimension, are read the same way in LibLanes.)
-/
import Idealize.ShloMosaic.Lib.ValueIdx
import Idealize.ShloMosaic.Lib.IdealHost
import Idealize.ShloMosaic.PureOps.Ideal.Laws
import Idealize.ShloMosaic.PureOps.Reduce
import Mathlib.Data.Finset.Fold

noncomputable section

namespace Cert.LibHostRows

open Idealize.ShloMosaic Idealize.ShloMosaic.ValueIdx

/-- The host's sum over the entries of row `p`, from the initial value. -/
theorem row_sum {a b : ℕ} (x : FVec Ideal (⟨2, ![a, b]⟩ : Shape) .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (_ + ·) (Finset.sum_congr rfl fun k _ => congrArg x (funext fun d => Fin.ext ?_))
  match d with
  | ⟨0, _⟩ => rfl
  | ⟨1, _⟩ => rfl

/-- The host's maximum over the entries of row `p`, from the initial value. -/
theorem row_max {a b : ℕ} (x : FVec Ideal (⟨2, ![a, b]⟩ : Shape) .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun k => x (ix2 p k)) := by
  refine (Host.reduce_eq_fold_single FloatOps.maximumf x init h' h hu (ix1 p)).trans ?_
  refine congrArg (Finset.fold max _ · Finset.univ) (funext fun k => congrArg x (funext fun d => Fin.ext ?_))
  match d with
  | ⟨0, _⟩ => rfl
  | ⟨1, _⟩ => rfl

/-- Taking the maximum with the fold's own starting value once more changes nothing. -/
theorem max_fold_self {b : ℕ} (z : EReal) (f : Fin b → EReal) :
    max z ((Finset.univ : Finset (Fin b)).fold max z f) = (Finset.univ : Finset (Fin b)).fold max z f :=
  max_eq_right ((Finset.le_fold_max (s := (Finset.univ : Finset (Fin b))) (f := f) (b := z) (c := z)).2 (Or.inl le_rfl))

end Cert.LibHostRows

end
-- ==== Proof.Region2.lean ====
/-
  The last region of the kernel's program: the bias added to the aggregated logits and the row-wise log-softmax, block by
  block. For a row f of sixteen logits, top f = max (−∞, the fold of max from −∞ over f) and the row's log-softmax at
  column j is (f j − top f) − log Σ_k exp (f k − top f). The kernel computes it on blocks of 10000 rows: a lane maximum
  and a lane sum with kept dimension, the column broadcast back over the lanes. The specification computes it on the
  whole array of 100000 rows: the host's row reductions, a vector of rows made a column and spread over the columns. Both
  read, at an entry (row, j), as the same formula of that row's sixteen logits; the block of point t of the grid is rows
  10000·t … 10000·t + 9999 of the array, and the ten blocks cover it.
-/
import proofs.«105810_j64484638982596_1_alg».proof.Proof.Gen.KernelIdeal.Frame
import proofs.«105810_j64484638982596_1_alg».proof.Proof.SpecCore
import proofs.«105810_j64484638982596_1_alg».proof.Proof.LibLanes
import proofs.«105810_j64484638982596_1_alg».proof.Proof.LibHostRows
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Gcn.Region2

open Idealize.ShloMosaic Idealize.ShloMosaic.ValueIdx Idealize.ShloMosaic.TcCoe
open Idealize.ShloMosaic.Pipeline (Dat)
open Cert.KernelIdeal Cert.KernelIdeal.Gen

/-! ## The formula on one row of sixteen logits -/

/-- The largest entry of a row of sixteen, never below −∞. -/
def rowTop (f : Fin 16 → EReal) : EReal :=
  max (Ideal.ofBits .f32 0xFF800000#32) ((Finset.univ : Finset (Fin 16)).fold max (Ideal.ofBits .f32 0xFF800000#32) f)

/-- The log-softmax of a row of sixteen at column j: (f j − top) − log Σ_k exp (f k − top). -/
def rowLogSoftmax (f : Fin 16 → EReal) (j : Fin 16) : EReal :=
  (f j - rowTop f) - Ideal.log (∑ k : Fin 16, Ideal.exp (f k - rowTop f))

/-! ## Broadcasts of the specification read at an entry -/

section Spread
variable {α : Type}

/-- A column [100000, 1] spread over sixteen columns reads, at (r, j), the column at r. -/
theorem colSpread_apply (x : (⟨2, ![100000, 1]⟩ : Shape).Idx → α)
    (h : (⟨2, ![100000, 1]⟩ : Shape).BroadcastsInDim ⟨2, ![100000, 16]⟩ ![0, 1]) (r : Fin 100000) (j : Fin 16) :
    broadcastInDim ⟨2, ![100000, 16]⟩ ![0, 1] h x (ix2 r j) = x (ix2 r (0 : Fin 1)) :=
  broadcastInDim_apply _ h x (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A vector of 100000 rows made a column reads, at (r, 0), the vector at r. -/
theorem asColumn_apply (x : (⟨1, ![100000]⟩ : Shape).Idx → α)
    (h : (⟨1, ![100000]⟩ : Shape).BroadcastsInDim ⟨2, ![100000, 1]⟩ ![0]) (r : Fin 100000) (u : Fin 1) :
    broadcastInDim ⟨2, ![100000, 1]⟩ ![0] h x (ix2 r u) = x (ix1 r) :=
  broadcastInDim_apply _ h x (ix2 r u) (ix1 r) (fun a => match a with
    | ⟨0, _⟩ => by show r.val = if (100000 : Nat) = 1 then 0 else r.val; rw [if_neg (by decide)])

/-- A row [1, 16] spread over 100000 rows reads, at (r, k), the row at k. -/
theorem rowSpread_apply (x : (⟨2, ![1, 16]⟩ : Shape).Idx → α)
    (h : (⟨2, ![1, 16]⟩ : Shape).BroadcastsInDim ⟨2, ![100000, 16]⟩ ![0, 1]) (r : Fin 100000) (k : Fin 16) :
    broadcastInDim ⟨2, ![100000, 16]⟩ ![0, 1] h x (ix2 r k) = x (ix2 (0 : Fin 1) k) :=
  broadcastInDim_apply _ h x (ix2 r k) (ix2 (0 : Fin 1) k) (fun a => match a with
    | ⟨0, _⟩ => by show 0 = if (1 : Nat) = 1 then 0 else r.val; rw [if_pos rfl]
    | ⟨1, _⟩ => by show k.val = if (16 : Nat) = 1 then 0 else k.val; rw [if_neg (by decide)])

/-- A vector of sixteen made a row reads, at (0, k), the vector at k. -/
theorem asRow_apply (x : (⟨1, ![16]⟩ : Shape).Idx → α)
    (h : (⟨1, ![16]⟩ : Shape).BroadcastsInDim ⟨2, ![1, 16]⟩ ![1]) (u : Fin 1) (k : Fin 16) :
    broadcastInDim ⟨2, ![1, 16]⟩ ![1] h x (ix2 u k) = x (ix1 k) :=
  broadcastInDim_apply _ h x (ix2 u k) (ix1 k) (fun a => match a with
    | ⟨0, _⟩ => by show k.val = if (16 : Nat) = 1 then 0 else k.val; rw [if_neg (by decide)])

end Spread

/-! ## Pointwise operations at an entry, from the operands' values there -/

section Pointwise
variable {s : Shape}

theorem maximumf_at (A B : FVec Ideal s .f32) (i : s.Idx) {a b : EReal} (ha : A i = a) (hb : B i = b) :
    maximumf A B i = max a b := by subst ha hb; rfl

theorem hostLog_at (A : FVec Ideal s .f32) (i : s.Idx) {a : EReal} (ha : A i = a) :
    Host.log A i = Ideal.log a := by subst ha; rfl

theorem hostExp_at (A : FVec Ideal s .f32) (i : s.Idx) {a : EReal} (ha : A i = a) :
    Host.exp A i = Ideal.exp a := by subst ha; rfl

/-- Adding onto the zero word adds onto the real zero. -/
theorem zero_word_add (c x : EReal) (hc : c = Ideal.ofBits .f32 0x00000000#32) : c + x = x := by
  rw [hc, Ideal.ofBits_zero_f32, zero_add]

end Pointwise

/-- Reducing a [100000, 16] array over its columns leaves a vector of 100000. -/
theorem reduces_rows : (⟨2, ![100000, 16]⟩ : Shape).Reduces [1] ⟨1, ![100000]⟩ := by decide

/-! ## The specification at an entry -/

/-- The logits at (r, k): the aggregated entry plus the bias of column k. -/
theorem logits_apply (agg : Arr S100000x16) (b2 : Arr S16) (r : Fin 100000) (k : Fin 16) :
    logits agg b2 (ix2 r k) = agg (ix2 r k) + b2 (ix1 k) := by
  unfold logits
  refine congrArg (agg (ix2 r k) + ·) ?_
  refine (rowSpread_apply _ _ r k).trans ?_
  exact asRow_apply b2 _ 0 k

/-- The host's row maximum at r is the top of row r. -/
theorem rowMax_apply (z : Arr S100000x16) (r : Fin 100000) :
    rowMax z (ix1 r) = rowTop (fun k => z (ix2 r k)) := by
  unfold rowMax rowTop
  exact maximumf_at _ _ _ (broadcastInDim_scalar_apply _ _ _) (Cert.LibHostRows.row_max z _ _ reduces_rows _ r)

/-- The moved entry at (r, k): the entry less the top of its row. -/
theorem shifted_apply (z : Arr S100000x16) (r : Fin 100000) (k : Fin 16) :
    shifted z (ix2 r k) = z (ix2 r k) - rowTop (fun k' => z (ix2 r k')) := by
  unfold shifted
  refine congrArg (z (ix2 r k) - ·) ?_
  refine (colSpread_apply _ _ r k).trans ?_
  refine (asColumn_apply _ _ r 0).trans ?_
  exact rowMax_apply z r

/-- The column of logarithms at (r, 0): the logarithm of the sum over row r of the exponentials of the moved entries
    (the host's sum starts from the zero word, which is the real zero). -/
theorem logSumExp_apply (z : Arr S100000x16) (r : Fin 100000) (u : Fin 1) :
    logSumExp z (ix2 r u) = Ideal.log (∑ k : Fin 16, Ideal.exp (z (ix2 r k) - rowTop (fun k' => z (ix2 r k')))) := by
  unfold logSumExp
  refine hostLog_at _ _ ?_
  refine (asColumn_apply _ _ r u).trans ?_
  refine (Cert.LibHostRows.row_sum (Host.exp (shifted z)) _ _ reduces_rows _ r).trans ?_
  refine (zero_word_add _ _ rfl).trans ?_
  exact Finset.sum_congr rfl fun k _ => hostExp_at _ _ (shifted_apply z r k)

/-- The specification's log-softmax at (r, j) is the row formula on row r. -/
theorem logSoftmax_apply (z : Arr S100000x16) (r : Fin 100000) (j : Fin 16) :
    logSoftmax z (ix2 r j) = rowLogSoftmax (fun k => z (ix2 r k)) j := by
  unfold logSoftmax rowLogSoftmax
  refine congrArg₂ (· - ·) (shifted_apply z r j) ?_
  refine (colSpread_apply _ _ r j).trans ?_
  exact logSumExp_apply z r 0

/-- The specification at (r, j): the row formula on the aggregated row r plus the bias. -/
theorem spec_apply (agg : Arr S100000x16) (b2 : Arr S16) (r : Fin 100000) (j : Fin 16) :
    logSoftmaxBias agg b2 (ix2 r j) = rowLogSoftmax (fun k => agg (ix2 r k) + b2 (ix1 k)) j := by
  unfold logSoftmaxBias
  refine (logSoftmax_apply _ r j).trans ?_
  exact congrArg (rowLogSoftmax · j) (funext fun k => logits_apply agg b2 r k)

/-! ## The kernel's payload at an entry -/

section Block
variable (hr : S10000x16.Reduces [1] S10000) (hφ : FKind.Formats .f32)
  (hmax : (0xFF800000#32 : BitVec 32) = 0xFF800000#32) (hadd : (0x00000000#32 : BitVec 32) = 0x00000000#32)
  (hsc : S10000.ShapeCasts S10000x1) (hbc : S10000x1.Broadcasts S10000x16)

/-- The block of logits at (p, k): the aggregated block's entry plus the bias row at k (the two casts to the same shape
    are the identity, the bias row is broadcast over the block's rows). -/
theorem logitsBlock_apply (h1 : S10000x16.ShapeCasts S10000x16) (h2 : S1x16.ShapeCasts S1x16) (h3 : S1x16.Broadcasts S10000x16)
    (z0 : FVec Ideal S10000x16 .f32) (brow : FVec Ideal S1x16 .f32) (p : Fin 10000) (k : Fin 16) :
    addf (shapeCast S10000x16 z0 h1) (broadcastTo S10000x16 (shapeCast S1x16 brow h2) h3) (ix2 p k)
      = z0 (ix2 p k) + brow (ix2 (0 : Fin 1) k) := by
  rw [shapeCast_self, shapeCast_self]
  exact congrArg (z0 (ix2 p k) + ·) (broadcastTo_1b_ab_apply brow h3 p k)

/-- The column of row tops of a block, broadcast back over the lanes, as the kernel spells it. -/
abbrev laneTop (v : FVec Ideal S10000x16 .f32) : FVec Ideal S10000x16 .f32 :=
  broadcastTo S10000x16 (shapeCast S10000x1 (maximumf (broadcast S10000 (Scalar.ofBits (F := Ideal) .f32 0xFF800000#32))
    (multiReduction .maximumf [1] S10000 v 0xFF800000#32 hr hφ hmax)) hsc) hbc

/-- It reads, at (p, j), the top of row p of the block. -/
theorem laneTop_apply (v : FVec Ideal S10000x16 .f32) (p : Fin 10000) (j : Fin 16) :
    laneTop hr hφ hmax hsc hbc v (ix2 p j) = rowTop (fun k => v (ix2 p k)) := by
  unfold rowTop
  refine (Cert.Lib.broadcastTo_a1_ab_apply _ hbc p j).trans ?_
  refine (Cert.Lib.shapeCast_a_a1_apply _ hsc p 0).trans ?_
  exact congrArg (max (Ideal.ofBits .f32 0xFF800000#32)) (Cert.Lib.lane_max v hr hφ hmax p)

/-- The logarithm of the lane sum of exponentials of a block, broadcast back over the lanes, at (p, j). -/
theorem laneLogSumExp_apply (w : FVec Ideal S10000x16 .f32) (p : Fin 10000) (j : Fin 16) :
    broadcastTo S10000x16 (log (shapeCast S10000x1 (multiReduction .add [1] S10000 (exp w) 0x00000000#32 hr hφ hadd) hsc)) hbc (ix2 p j)
      = Ideal.log (∑ k : Fin 16, Ideal.exp (w (ix2 p k))) := by
  refine (Cert.Lib.broadcastTo_a1_ab_apply _ hbc p j).trans ?_
  refine congrArg Ideal.log ?_
  refine (Cert.Lib.shapeCast_a_a1_apply _ hsc p 0).trans ?_
  exact Cert.Lib.lane_sum (exp w) hr hφ hadd p

/-- The log-softmax of a block of logits v as the kernel computes it, at (p, j): the row formula on row p of v. -/
theorem laneLogSoftmax_apply (v : FVec Ideal S10000x16 .f32) (p : Fin 10000) (j : Fin 16) :
    subf (subf v (laneTop hr hφ hmax hsc hbc v))
        (broadcastTo S10000x16 (log (shapeCast S10000x1 (multiReduction .add [1] S10000
          (exp (subf v (laneTop hr hφ hmax hsc hbc v))) 0x00000000#32 hr hφ hadd) hsc)) hbc) (ix2 p j)
      = rowLogSoftmax (fun k => v (ix2 p k)) j := by
  have hs : ∀ k : Fin 16, subf v (laneTop hr hφ hmax hsc hbc v) (ix2 p k) = v (ix2 p k) - rowTop (fun k' => v (ix2 p k')) :=
    fun k => congrArg (v (ix2 p k) - ·) (laneTop_apply hr hφ hmax hsc hbc v p k)
  unfold rowLogSoftmax
  refine congrArg₂ (· - ·) (hs j) ?_
  refine (laneLogSumExp_apply hr hφ hadd hsc hbc _ p j).trans ?_
  exact congrArg Ideal.log (Finset.sum_congr rfl fun k _ => congrArg Ideal.exp (hs k))

end Block

/-- The kernel's payload at (p, j): the row formula on row p of the aggregated block plus the bias row. -/
theorem payload_apply (z0 : Vec Ideal S10000x16 .f32) (brow : Vec Ideal S1x16 .f32) (p : Fin 10000) (j : Fin 16) :
    k2_pay1 (F := Ideal) z0 brow (ix2 p j) = rowLogSoftmax (fun k => z0 (ix2 p k) + brow (ix2 (0 : Fin 1) k)) j := by
  unfold k2_pay1
  refine (laneLogSoftmax_apply _ _ _ _ _ _ _ p j).trans ?_
  exact congrArg (rowLogSoftmax · j) (funext fun k => logitsBlock_apply _ _ _ z0 brow p k)

/-! ## From the blocks to the array -/

theorem offsets_zero : (![0, 0] : Fin 2 → Nat) = fun _ => 0 := funext fun a => by fin_cases a <;> rfl

/-- The index maps over the ten points: the aggregated array's window and the output's sit at block (t, 0), the bias
    row's at block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region
variable (V : (c : Dev nD) → (b : Ref sig .tc) → Buf (Elt Ideal) ((c : Thread nD τ).loc b)) (c : Dev nD)

/-- The aggregated array's block at point t, entry y, is the array at row 10000·t + y₀, column y₁. -/
theorem aggBlock_apply (t : Fin cfg2.N) (y : S10000x16.Idx) (i : S100000x16.Idx)
    (h0 : (i 0).val = 10000 * t.val + (y 0).val) (h1 : (i 1).val = (y 1).val) :
    (iblk2 (F := Ideal) V c 0 t : Vec Ideal S10000x16 .f32) y = (V c main_v60 : S100000x16.Idx → Elt Ideal .f32) i := by
  obtain ⟨e0, e1, -, -, -, -⟩ := index_facts t
  unfold iblk2
  rw [View.read_apply]
  show V c main_v60 _ = V c main_v60 _
  congr 1
  funext a
  apply Fin.ext
  match a with
  | ⟨0, _⟩ => show win2_0.index t 0 * 10000 + 1 * (y 0).val = (i 0).val; rw [e0, h0]; omega
  | ⟨1, _⟩ => show win2_0.index t 1 * 16 + 1 * (y 1).val = (i 1).val; rw [e1, h1]; omega

/-- The bias row's block at any point is the whole row. -/
theorem biasBlock_apply (t : Fin cfg2.N) (y : S1x16.Idx) :
    (iblk2 (F := Ideal) V c 1 t : Vec Ideal S1x16 .f32) y = (V c main_v61 : S1x16.Idx → Elt Ideal .f32) y := by
  obtain ⟨-, -, e2, e3, -, -⟩ := index_facts t
  unfold iblk2
  rw [View.read_apply]
  show V c main_v61 _ = V c main_v61 _
  congr 1
  funext a
  apply Fin.ext
  match a with
  | ⟨0, _⟩ => show win2_1.index t 0 * 1 + 1 * (y 0).val = (y 0).val; rw [e2]; omega
  | ⟨1, _⟩ => show win2_1.index t 1 * 16 + 1 * (y 1).val = (y 1).val; rw [e3]; omega

/-- One entry of one block: when row y₀ of the aggregated block is row i₀ of the array, the bias block is the bias and
    the columns agree, the payload at y is the specification at i. -/
theorem block_entry (z0 : Vec Ideal S10000x16 .f32) (brow : Vec Ideal S1x16 .f32) (agg : Arr S100000x16) (b2 : Arr S16)
    (y : S10000x16.Idx) (i : S100000x16.Idx)
    (hrow : ∀ k : Fin 16, z0 (ix2 (y 0) k) = agg (ix2 (i 0) k))
    (hbias : ∀ k : Fin 16, brow (ix2 (0 : Fin 1) k) = b2 (ix1 k))
    (hcol : (i 1).val = (y 1).val) :
    k2_pay1 (F := Ideal) z0 brow y = logSoftmaxBias agg b2 i := by
  obtain ⟨p, j, rfl⟩ : ∃ (p : Fin 10000) (j : Fin 16), y = ix2 p j := ⟨y 0, y 1, eq_ix2 y⟩
  obtain ⟨r, j', rfl⟩ : ∃ (r : Fin 100000) (j' : Fin 16), i = ix2 r j' := ⟨i 0, i 1, eq_ix2 i⟩
  obtain rfl : j' = j := Fin.ext hcol
  have hrow' : ∀ k : Fin 16, z0 (ix2 p k) = agg (ix2 r k) := hrow
  refine (payload_apply z0 brow p j').trans ?_
  refine Eq.trans ?_ (spec_apply agg b2 r j').symm
  exact congrArg (rowLogSoftmax · j') (funext fun k => congrArg₂ (· + ·) (hrow' k) (hbias k))

variable (b2 : Arr S16)

/-- What point t writes back is block t of the specification of the aggregated array as the region finds it. -/
theorem flushed_eq (hb : ∀ k : Fin 16, V c main_v61 (ix2 (0 : Fin 1) k) = b2 (ix1 k)) (t : Fin cfg2.N) :
    (dat2 (F := Ideal) V c).flushed 2 t
      = ((cfg2.win 2).blk t).view.read (Elt Ideal) (logSoftmaxBias (V c main_v60) b2) := by
  show (cfg2.win 2).cut (grid2.coords t) ((dat2 V c).after 2 t) = _
  rw [after2_2]
  unfold out2_2
  rw [View.canon_unit_zero offsets_zero]
  simp only [View.ld_unit_zero (S := S10000x16) offsets_zero, View.ld_unit_zero (S := S1x16) offsets_zero]
  obtain ⟨-, -, -, -, e4, e5⟩ := index_facts t
  funext y
  show k2_pay1 (iblk2 V c 0 t) (iblk2 V c 1 t) y
    = logSoftmaxBias (V c main_v60) b2 (((cfg2.win 2).blk t).view.emb y)
  refine block_entry (iblk2 V c 0 t) (iblk2 V c 1 t) (V c main_v60) b2 y _ (fun k => ?_) (fun k => ?_) ?_
  · refine aggBlock_apply V c t _ _ ?_ rfl
    show win2_2.index t 0 * 10000 + 1 * (y 0).val = 10000 * t.val + (y 0).val
    rw [e4]; omega
  · exact (biasBlock_apply V c t _).trans (hb k)
  · show win2_2.index t 1 * 16 + 1 * (y 1).val = (y 1).val
    rw [e5]; omega

/-- An index of the array is in point t's block iff each coordinate is in the block's range on its axis. -/
theorem mem_blk (t : Fin cfg2.N) (i : S100000x16.Idx) :
    i ∈ ((cfg2.win 2).blk t).view.set
      ↔ ∀ a : Fin 2, win2_2.index t a * S10000x16.size a ≤ (i a).val
          ∧ (i a).val < win2_2.index t a * S10000x16.size a + S10000x16.size a := by
  show i ∈ ((View.whole main_v62).slice (win2_2.rect t)).set ↔ _
  rw [View.set_slice_whole, Rect.mem_set_unit]
  exact Iff.rfl

/-- Row r of the array lies in the block of point r / 10000: the ten blocks cover the array. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := index_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 16 ≤ (i 1).val ∧ (i 1).val < win2_2.index t (1 : Fin 2) * 16 + 16
    rw [e5]; omega

/-- THE REGION'S VALUE: after the ten points the output array holds the log-softmax of the aggregated array plus the
    bias, whatever else the buffers held when the region was entered. -/
theorem value (hb : ∀ k : Fin 16, V c main_v61 (ix2 (0 : Fin 1) k) = b2 (ix1 k)) :
    (dat2 (F := Ideal) V c).arrAt 2 cfg2.N = logSoftmaxBias (V c main_v60) b2 :=
  (dat2 (F := Ideal) V c).arrAt_eq_of_cover 2 (logSoftmaxBias (V c main_v60) b2)
    (fun t _ => flushed_eq V c b2 hb t) (cover)

end Region

end Cert.Gcn.Region2

end
-- ==== Proof.KernelValue.lean ====
/-
  The value of the idealized kernel program: after its run, the result array is the two-layer graph convolution of the
  six arguments as launched. The buffer contents are followed from boundary to boundary. At the first region's entry the
  edge lists and weights are the reference's stages of the edge index array and the float arguments are untouched; the
  first region leaves x · W1 in its output; the first middle stretch spreads it along the lists and reshapes b1; the
  second region leaves relu (· + b1) · W2 of the spread array; the second middle stretch spreads that and reshapes b2;
  the third region leaves the row-wise log-softmax of the spread array plus b2. No stretch or region writes a list, the
  weights, or an argument it does not own.
-/
import proofs.«105810_j64484638982596_1_alg».proof.Proof.HostPrefix
import proofs.«105810_j64484638982596_1_alg».proof.Proof.HostMid
import proofs.«105810_j64484638982596_1_alg».proof.Proof.Spec
import proofs.«105810_j64484638982596_1_alg».proof.Proof.Region0
import proofs.«105810_j64484638982596_1_alg».proof.Proof.Region1
import proofs.«105810_j64484638982596_1_alg».proof.Proof.Region2
import Idealize.ShloMosaic.Lib.ValueLayout

noncomputable section

namespace Cert.Gcn.KernelValue

open Cert.KernelIdeal Cert.KernelIdeal.Gen Cert.Gcn.HostSide
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first region's output: x · W1 of the launched arguments. -/
theorem after_region0 : W4 m ρ c (Proc.devRef .tc main_v32)
    = Cert.Gcn.lin1 (F := Ideal) (m ((c : Thread nD τ).loc main_arg0)) (m ((c : Thread nD τ).loc main_arg2)) := by
  refine (W4_arr m ρ c 2).trans ?_
  refine (Cert.Gcn.Region0.value (V3 m ρ) c).trans ?_
  show Cert.Gcn.lin1 (F := Ideal) (W3 m ρ c (Proc.devRef .tc main_arg0)) (W3 m ρ c (Proc.devRef .tc main_arg2)) = _
  rw [entry_arg0, entry_arg2]

/-- The first region writes only its output: the lists, the weights and the other arguments stay. -/
theorem keep0_src : W4 m ρ c (Proc.devRef .tc main_v3) = W3 m ρ c (Proc.devRef .tc main_v3) := W4_of_ne m ρ c main_v3 (by decide)
theorem keep0_dst : W4 m ρ c (Proc.devRef .tc main_v6) = W3 m ρ c (Proc.devRef .tc main_v6) := W4_of_ne m ρ c main_v6 (by decide)
theorem keep0_weight : W4 m ρ c (Proc.devRef .tc main_v31) = W3 m ρ c (Proc.devRef .tc main_v31) := W4_of_ne m ρ c main_v31 (by decide)
theorem keep0_arg3 : W4 m ρ c (Proc.devRef .tc main_arg3) = W3 m ρ c (Proc.devRef .tc main_arg3) := W4_of_ne m ρ c main_arg3 (by decide)
theorem keep0_arg4 : W4 m ρ c (Proc.devRef .tc main_arg4) = W3 m ρ c (Proc.devRef .tc main_arg4) := W4_of_ne m ρ c main_arg4 (by decide)
theorem keep0_arg5 : W4 m ρ c (Proc.devRef .tc main_arg5) = W3 m ρ c (Proc.devRef .tc main_arg5) := W4_of_ne m ρ c main_arg5 (by decide)

/-- The second region's first operand: the spreading of x · W1 along the graph's edges. -/
theorem entry1_agg : W5 m ρ c (Proc.devRef .tc main_v45)
    = Cert.Gcn.spread48 (Cert.Gcn.lin1 (F := Ideal) (m ((c : Thread nD τ).loc main_arg0)) (m ((c : Thread nD τ).loc main_arg2)))
        (m ((c : Thread nD τ).loc main_arg1)) := by
  refine (mid1_agg (W4 m ρ c)).trans ?_
  rw [after_region0, keep0_src, keep0_dst, keep0_weight, entry_src, entry_dst, entry_weight]
  rfl

/-- The second region's bias row, entry by entry. -/
theorem entry1_bias (k : Fin 48) : W5 m ρ c (Proc.devRef .tc main_v46) (ValueIdx.ix2 (0 : Fin 1) k)
    = m ((c : Thread nD τ).loc main_arg3) (ValueIdx.ix1 k) := by
  rw [show W5 m ρ c (Proc.devRef .tc main_v46) = _ from mid1_bias (W4 m ρ c), keep0_arg3, entry_arg3]
  exact ValueIdx.shapeCast_a_1a_apply _ _ (0 : Fin 1) k

/-- The second region's weight matrix. -/
theorem entry1_arg4 : W5 m ρ c (Proc.devRef .tc main_arg4) = m ((c : Thread nD τ).loc main_arg4) := by
  rw [show W5 m ρ c (Proc.devRef .tc main_arg4) = _ from mid1_keep_arg4 (W4 m ρ c), keep0_arg4, entry_arg4]

/-- The second region's output: relu (· + b1) · W2 of the spread array. -/
theorem after_region1 : W6 m ρ c (Proc.devRef .tc main_v47)
    = Cert.Gcn.lin2 (F := Ideal) (Cert.Gcn.spread48 (Cert.Gcn.lin1 (F := Ideal) (m ((c : Thread nD τ).loc main_arg0)) (m ((c : Thread nD τ).loc main_arg2)))
        (m ((c : Thread nD τ).loc main_arg1))) (m ((c : Thread nD τ).loc main_arg3)) (m ((c : Thread nD τ).loc main_arg4)) := by
  refine (W6_arr m ρ c 3).trans ?_
  refine (Cert.Gcn.Region1.value (V5 m ρ) c (m ((c : Thread nD τ).loc main_arg3)) (entry1_bias m ρ c)).trans ?_
  show Cert.Gcn.lin2 (F := Ideal) (W5 m ρ c (Proc.devRef .tc main_v45)) _ (W5 m ρ c (Proc.devRef .tc main_arg4)) = _
  rw [entry1_agg, entry1_arg4]

/-- Through the second region and the stretch before it the lists, the weights and b2 stay. -/
theorem keep1_src : W6 m ρ c (Proc.devRef .tc main_v3) = Cert.ReferenceIdeal.ReadP.val_main_v3 (F := Ideal) (m ((c : Thread nD τ).loc main_arg1)) := by
  rw [W6_of_ne m ρ c main_v3 (by decide), show W5 m ρ c (Proc.devRef .tc main_v3) = _ from mid1_keep_src (W4 m ρ c), keep0_src, entry_src]
theorem keep1_dst : W6 m ρ c (Proc.devRef .tc main_v6) = Cert.ReferenceIdeal.ReadP.val_main_v6 (F := Ideal) (m ((c : Thread nD τ).loc main_arg1)) := by
  rw [W6_of_ne m ρ c main_v6 (by decide), show W5 m ρ c (Proc.devRef .tc main_v6) = _ from mid1_keep_dst (W4 m ρ c), keep0_dst, entry_dst]
theorem keep1_weight : W6 m ρ c (Proc.devRef .tc main_v31) = Cert.ReferenceIdeal.ReadP.val_main_v31 (F := Ideal) (m ((c : Thread nD τ).loc main_arg1)) := by
  rw [W6_of_ne m ρ c main_v31 (by decide), show W5 m ρ c (Proc.devRef .tc main_v31) = _ from mid1_keep_weight (W4 m ρ c), keep0_weight, entry_weight]
theorem keep1_arg5 : W6 m ρ c (Proc.devRef .tc main_arg5) = m ((c : Thread nD τ).loc main_arg5) := by
  rw [W6_of_ne m ρ c main_arg5 (by decide), show W5 m ρ c (Proc.devRef .tc main_arg5) = _ from mid1_keep_arg5 (W4 m ρ c), keep0_arg5, entry_arg5]

/-- The third region's first operand: the spreading of the second region's output. -/
theorem entry2_agg : W7 m ρ c (Proc.devRef .tc main_v60)
    = Cert.Gcn.spread16 (Cert.Gcn.lin2 (F := Ideal) (Cert.Gcn.spread48 (Cert.Gcn.lin1 (F := Ideal) (m ((c : Thread nD τ).loc main_arg0)) (m ((c : Thread nD τ).loc main_arg2)))
        (m ((c : Thread nD τ).loc main_arg1))) (m ((c : Thread nD τ).loc main_arg3)) (m ((c : Thread nD τ).loc main_arg4)))
        (m ((c : Thread nD τ).loc main_arg1)) := by
  refine (mid2_agg (W6 m ρ c)).trans ?_
  rw [after_region1, keep1_src, keep1_dst, keep1_weight]
  rfl

/-- The third region's bias row, entry by entry. -/
theorem entry2_bias (k : Fin 16) : W7 m ρ c (Proc.devRef .tc main_v61) (ValueIdx.ix2 (0 : Fin 1) k)
    = m ((c : Thread nD τ).loc main_arg5) (ValueIdx.ix1 k) := by
  rw [show W7 m ρ c (Proc.devRef .tc main_v61) = _ from mid2_bias (W6 m ρ c), keep1_arg5]
  exact ValueIdx.shapeCast_a_1a_apply _ _ (0 : Fin 1) k

/-- THE RESULT: the network of the launched arguments. -/
theorem result : W8 m ρ c (Proc.devRef .tc main_v62)
    = Cert.Gcn.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 2).trans ?_
  refine (Cert.Gcn.Region2.value (V7 m ρ) c (m ((c : Thread nD τ).loc main_arg5)) (entry2_bias m ρ c)).trans ?_
  show Cert.Gcn.logSoftmaxBias (F := Ideal) (W7 m ρ c (Proc.devRef .tc main_v60)) _ = _
  rw [entry2_agg]
  rfl

end Cert.Gcn.KernelValue

end
-- ==== Proof.RefValue.lean ====
/-
  The reference program's result as ONE function of its six arguments: from any contents of the buffers, after the 101
  host operations of @main the result buffer holds the two-layer graph convolution

      log_softmax (Â · (relu (Â · (x · W1) + b1) · W2) + b2)

  of the arguments found in the buffers, with Â's edge lists and edge weights the program's own stages of the edge
  index array.

  The operations are read a stretch at a time, each stretch from ARBITRARY contents of the buffers it starts from, and
  the stretches are then chained: (1) the source and destination lists with the self loops appended, the in-degree
  count and d ↦ (max d 1)^(-1/2); (2) the outlined select (the factor where the count is positive, zero elsewhere);
  (3) the edge weights, the product of the factor gathered at the two ends; (4) x · W1, its spreading along the edges
  on 48 columns, and the first bias added; (5) the outlined positive part; (6) the product with W2, its spreading on 16
  columns, and the second bias added; (7) the outlined row-wise log-softmax. No stretch writes an argument, and none
  after (3) writes the lists or the weights.
-/
import proofs.«105810_j64484638982596_1_alg».proof.Proof.RefRun
import proofs.«105810_j64484638982596_1_alg».proof.Proof.Spec
import proofs.«105810_j64484638982596_1_alg».proof.Proof.RefRead
import Idealize.ShloMosaic.Lib.StableHlo.Run

noncomputable section

namespace Cert.Gcn.RefSide

open Cert.ReferenceIdeal Cert.ReferenceIdeal.Gen Idealize.ShloMosaic Idealize.ShloMosaic.TcCoe Idealize.SL.Sem Idealize.ShloMosaic.StableHlo

/-! ## The stretches of @main's operations -/

section Lists
variable {F : FTy → Type} [FloatOps F]

/-- (1) The edge lists, the degree count and its inverse square root: the first 21 operations. -/
abbrev opsCount : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- (2) The outlined select: 3 operations. -/
abbrev opsWhere : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- (3) The edge weights: 19 operations. -/
abbrev opsWeights : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- (4) The first product, its spreading and the first bias: 20 operations. -/
abbrev opsLayer1 : List (HloOp τ sig (Elt F)) :=
  [ binary main_arg0 main_arg2 main_v32 ((fun l r => Host.dotGeneral dot_S100000x128_S128x48_S100000x48_1_0_0_1_n_n none l r) : (⟨S100000x128, .f32⟩ : BufTy).Contents (Elt F) → (⟨S128x48, .f32⟩ : BufTy).Contents (Elt F) → (⟨S100000x48, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x48_S1700000x1_S1700000x48_1_0_n_n_0_1_148 x i) : (⟨S100000x48, .f32⟩ : BufTy).Contents (Elt F) → (⟨S1700000x1, .i32⟩ : BufTy).Contents (Elt F) → (⟨S1700000x48, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x48 ![0, 1] bcast_S1700000x1_S1700000x48_0_1 : (⟨S1700000x1, .f32⟩ : BufTy).Contents (Elt F) → (⟨S1700000x48, .f32⟩ : BufTy).Contents (Elt F)),
    binary main_v39 main_v41 main_v42 (mulf : (⟨S1700000x48, .f32⟩ : BufTy).Contents (Elt F) → (⟨S1700000x48, .f32⟩ : BufTy).Contents (Elt F) → (⟨S1700000x48, .f32⟩ : BufTy).Contents (Elt F)),
    nullary main_cst_9 (constant S_ .f32 0x00000000#32),
    unary main_cst_9 main_v43 (broadcastInDim S100000x48 ![] bcast_S_S100000x48 : (⟨S_, .f32⟩ : BufTy).Contents (Elt F) → (⟨S100000x48, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x48_S1700000x1_S1700000x48_1_0_0_1 x i u) : (⟨S100000x48, .f32⟩ : BufTy).Contents (Elt F) → (⟨S1700000x1, .i32⟩ : BufTy).Contents (Elt F) → (⟨S1700000x48, .f32⟩ : BufTy).Contents (Elt F) → (⟨S100000x48, .f32⟩ : BufTy).Contents (Elt F)),
    unary main_arg3 main_v46 (broadcastInDim S1x48 ![1] bcast_S48_S1x48_1 : (⟨S48, .f32⟩ : BufTy).Contents (Elt F) → (⟨S1x48, .f32⟩ : BufTy).Contents (Elt F)),
    unary main_v46 main_v47 (broadcastInDim S100000x48 ![0, 1] bcast_S1x48_S100000x48_0_1 : (⟨S1x48, .f32⟩ : BufTy).Contents (Elt F) → (⟨S100000x48, .f32⟩ : BufTy).Contents (Elt F)),
    binary main_v45 main_v47 main_v48 (addf : (⟨S100000x48, .f32⟩ : BufTy).Contents (Elt F) → (⟨S100000x48, .f32⟩ : BufTy).Contents (Elt F) → (⟨S100000x48, .f32⟩ : BufTy).Contents (Elt F)) ]

/-- (5) The outlined positive part: 3 operations. -/
abbrev opsRelu : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x48, .f32⟩) main_call1_v0) (broadcastInDim S100000x48 ![] bcast_S_S100000x48),
    TRef.binary (TRef.of (T := ⟨S100000x48, .f32⟩) main_v48) (TRef.of (T := ⟨S100000x48, .f32⟩) main_call1_v0) (TRef.of (T := ⟨S100000x48, .f32⟩) main_v49) maximumf ]

/-- (6) The second product, its spreading and the second bias: 20 operations. -/
abbrev opsLayer2 : List (HloOp τ sig (Elt F)) :=
  [ binary main_v49 main_arg4 main_v50 ((fun l r => Host.dotGeneral dot_S100000x48_S48x16_S100000x16_1_0_0_1_n_n none l r) : (⟨S100000x48, .f32⟩ : BufTy).Contents (Elt F) → (⟨S48x16, .f32⟩ : BufTy).Contents (Elt F) → (⟨S100000x16, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x16 ![0, 1] bcast_S1700000x1_S1700000x16_0_1 : (⟨S1700000x1, .f32⟩ : BufTy).Contents (Elt F) → (⟨S1700000x16, .f32⟩ : BufTy).Contents (Elt F)),
    binary main_v57 main_v59 main_v60 (mulf : (⟨S1700000x16, .f32⟩ : BufTy).Contents (Elt F) → (⟨S1700000x16, .f32⟩ : BufTy).Contents (Elt F) → (⟨S1700000x16, .f32⟩ : BufTy).Contents (Elt F)),
    nullary main_cst_12 (constant S_ .f32 0x00000000#32),
    unary main_cst_12 main_v61 (broadcastInDim S100000x16 ![] bcast_S_S100000x16 : (⟨S_, .f32⟩ : BufTy).Contents (Elt F) → (⟨S100000x16, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v64 (broadcastInDim S1x16 ![1] bcast_S16_S1x16_1 : (⟨S16, .f32⟩ : BufTy).Contents (Elt F) → (⟨S1x16, .f32⟩ : BufTy).Contents (Elt F)),
    unary main_v64 main_v65 (broadcastInDim S100000x16 ![0, 1] bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)) ]

/-- (7a) Inside the outlined log-softmax, each row's largest entry: 5 operations. -/
abbrev opsRowMax : List (HloOp τ sig (Elt F)) :=
  [ TRef.nullary (TRef.of (T := ⟨S_, .f32⟩) main_call2_cst) (constant S_ .f32 0xFF800000#32),
    TRef.binary (TRef.of (T := ⟨S100000x16, .f32⟩) main_v66) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- (7b) Each row moved down by its largest entry: 3 operations. -/
abbrev opsShift : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v66) (TRef.of (T := ⟨S100000x16, .f32⟩) main_call2_v4) (TRef.of (T := ⟨S100000x16, .f32⟩) main_call2_v5) subf ]

/-- (7c) The logarithm of each moved row's sum of exponentials: 5 operations. -/
abbrev opsLogSum : List (HloOp τ sig (Elt F)) :=
  [ TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log ]

/-- (7d) The moved rows less that logarithm: 2 operations. -/
abbrev opsLess : List (HloOp τ sig (Elt F)) :=
  [ TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v67) subf ]

set_option maxRecDepth 8192 in
/-- @main's operations are the ten stretches in order. -/
theorem ops_split : (ValueP.ops : List (HloOp τ sig (Elt F)))
    = opsCount ++ (opsWhere ++ (opsWeights ++ (opsLayer1 ++ (opsRelu ++ (opsLayer2 ++ (opsRowMax ++ (opsShift ++ (opsLogSum ++ opsLess)))))))) := rfl

/-- agg + b, the bias spread over the rows: what the hidden activations are the positive part of. -/
def biased48 (agg : FArr F S100000x48) (b : FArr F S48) : FArr F S100000x48 :=
  addf agg (broadcastInDim S100000x48 ![0, 1] bcast_S1x48_S100000x48_0_1 (broadcastInDim S1x48 ![1] bcast_S48_S1x48_1 b))

/-- The positive part, entry by entry. -/
def positivePart (z : FArr F S100000x48) : FArr F S100000x48 :=
  maximumf z (broadcastInDim S100000x48 ![] bcast_S_S100000x48 (constant S_ .f32 0x00000000#32))

/-- h · W2. -/
def dense2 (h : FArr F S100000x48) (W : FArr F S48x16) : FArr F S100000x16 :=
  Host.dotGeneral dot_S100000x48_S48x16_S100000x16_1_0_0_1_n_n none h W

/-- z with m taken off each row: m spread to a column, then over the 16 columns. -/
def shiftBy (z : FArr F S100000x16) (m : FArr F S100000) : FArr F S100000x16 :=
  subf z (broadcastInDim S100000x16 ![0, 1] bcast_S100000x1_S100000x16_0_1 (broadcastInDim S100000x1 ![0] bcast_S100000_S100000x1_0 m))

/-- The logarithm of each row's sum of exponentials, as a column. -/
def logSumOfExp (s : FArr F S100000x16) : FArr F S100000x1 :=
  Host.log (broadcastInDim S100000x1 ![0] bcast_S100000_S100000x1_0
    (Host.reduceAdd (Host.exp s) (constant S_ .f32 0x00000000#32) reducesTo_S100000x16_S100000_d1 h_S_))

/-- s with the column l taken off each row. -/
def lessColumn (s : FArr F S100000x16) (l : FArr F S100000x1) : FArr F S100000x16 :=
  subf s (broadcastInDim S100000x16 ![0, 1] bcast_S100000x1_S100000x16_0_1 l)

/-- The weight of each edge from the per-node factor and the two edge lists: the factor gathered at the source times the
    factor gathered at the destination (a negative index counted from the end). -/
def edgeWeights (f : FArr F S100000) (src dst : FIArr F S1700000) : FArr F S1700000 :=
  mulf
    (Host.gather gather_S100000_S1700000x1_S1700000_n_0_n_n_0_1_1 f
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))
    (Host.gather gather_S100000_S1700000x1_S1700000_n_0_n_n_0_1_1 f
      (broadcastInDim S1700000x1 ![0] bcast_S1700000_S1700000x1_0
        (select (cmpi .slt dst (broadcastInDim S1700000 ![] bcast_S_S1700000 (constantI S_ 32 0#32)))
          (addi dst (broadcastInDim S1700000 ![] bcast_S_S1700000 (constantI S_ 32 100000#32))) dst)))

end Lists

/-! ## Typed references: a value written through a typed reference and read back through it is the value -/

/-- Reading back through a typed reference what was written through it. -/
theorem ofBuf_toBuf {T : BufTy} (x : TRef sig T) (v : T.Contents (Elt Ideal)) : x.ofBuf (x.toBuf v) = v := by
  obtain ⟨r, h, h2, h3⟩ := x
  subst h
  rfl

/-- Writing through a typed reference whose type is the buffer's own, by computation, writes the value itself. -/
theorem toBuf_of (r : Ref sig .tc) (h2) (h3) (v : r.ty.Contents (Elt Ideal)) :
    (TRef.of (T := r.ty) r rfl h2 h3).toBuf v = v := rfl

/-- Reading the logits' buffer at its own type is the identity. -/
theorem ofBuf_logits (p1) (p2) (p3) (v : main_v66.ty.Contents (Elt Ideal)) :
    (TRef.of (T := ⟨S100000x16, .f32⟩) main_v66 p1 p2 p3).ofBuf v = v := rfl
/-- Reading the moved rows' buffer at its own type is the identity. -/
theorem ofBuf_shifted (p1) (p2) (p3) (v : main_call2_v5.ty.Contents (Elt Ideal)) :
    (TRef.of (T := ⟨S100000x16, .f32⟩) main_call2_v5 p1 p2 p3).ofBuf v = v := rfl

/-- Operations run one list after another are the concatenated list run once. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, after_cons, after_cons, after_app l₁ l₂]

section Stretches
variable (Wv : Valuation τ sig (Elt Ideal))

/-! ## (1) The lists, the degree count and its inverse square root, from the edge index array found in the buffers -/

theorem count_src : StableHlo.after opsCount Wv (Proc.devRef .tc main_v3)
    = ReadP.val_main_v3 (F := Ideal) (Wv (Proc.devRef .tc main_arg1)) := by
  simp only [opsCount]; after_results_simp; rfl
theorem count_dst : StableHlo.after opsCount Wv (Proc.devRef .tc main_v6)
    = ReadP.val_main_v6 (F := Ideal) (Wv (Proc.devRef .tc main_arg1)) := by
  simp only [opsCount]; after_results_simp; rfl
theorem count_positive : StableHlo.after opsCount Wv (Proc.devRef .tc main_v12)
    = ReadP.val_main_v12 (F := Ideal) (Wv (Proc.devRef .tc main_arg1)) := by
  simp only [opsCount]; after_results_simp; rfl
theorem count_rsqrt : StableHlo.after opsCount Wv (Proc.devRef .tc main_v15)
    = ReadP.val_main_v15 (F := Ideal) (Wv (Proc.devRef .tc main_arg1)) := by
  simp only [opsCount]; after_results_simp; rfl
theorem count_zero : StableHlo.after opsCount Wv (Proc.devRef .tc main_cst_3) = ReadP.val_main_cst_3 (F := Ideal) := by
  simp only [opsCount]; after_results_simp; rfl
theorem count_keep_arg0 : StableHlo.after opsCount Wv (Proc.devRef .tc main_arg0) = Wv (Proc.devRef .tc main_arg0) := by
  simp only [opsCount]; after_results_simp
theorem count_keep_arg2 : StableHlo.after opsCount Wv (Proc.devRef .tc main_arg2) = Wv (Proc.devRef .tc main_arg2) := by
  simp only [opsCount]; after_results_simp
theorem count_keep_arg3 : StableHlo.after opsCount Wv (Proc.devRef .tc main_arg3) = Wv (Proc.devRef .tc main_arg3) := by
  simp only [opsCount]; after_results_simp
theorem count_keep_arg4 : StableHlo.after opsCount Wv (Proc.devRef .tc main_arg4) = Wv (Proc.devRef .tc main_arg4) := by
  simp only [opsCount]; after_results_simp
theorem count_keep_arg5 : StableHlo.after opsCount Wv (Proc.devRef .tc main_arg5) = Wv (Proc.devRef .tc main_arg5) := by
  simp only [opsCount]; after_results_simp

/-! ## (2) The outlined select -/

/-- The factor where the degree is positive, the spread zero elsewhere. -/
theorem where_factor : StableHlo.after opsWhere Wv (Proc.devRef .tc main_v16)
    = select (Wv (Proc.devRef .tc main_v12)) (Wv (Proc.devRef .tc main_v15))
        (broadcastInDim S100000 ![] bcast_S_S100000 (id (Wv (Proc.devRef .tc main_cst_3)))) := by
  simp only [opsWhere]; after_results_simp; rfl
theorem where_keep_v3 : StableHlo.after opsWhere Wv (Proc.devRef .tc main_v3) = Wv (Proc.devRef .tc main_v3) := by
  simp only [opsWhere]; after_results_simp
theorem where_keep_v6 : StableHlo.after opsWhere Wv (Proc.devRef .tc main_v6) = Wv (Proc.devRef .tc main_v6) := by
  simp only [opsWhere]; after_results_simp
theorem where_keep_arg0 : StableHlo.after opsWhere Wv (Proc.devRef .tc main_arg0) = Wv (Proc.devRef .tc main_arg0) := by
  simp only [opsWhere]; after_results_simp
theorem where_keep_arg2 : StableHlo.after opsWhere Wv (Proc.devRef .tc main_arg2) = Wv (Proc.devRef .tc main_arg2) := by
  simp only [opsWhere]; after_results_simp
theorem where_keep_arg3 : StableHlo.after opsWhere Wv (Proc.devRef .tc main_arg3) = Wv (Proc.devRef .tc main_arg3) := by
  simp only [opsWhere]; after_results_simp
theorem where_keep_arg4 : StableHlo.after opsWhere Wv (Proc.devRef .tc main_arg4) = Wv (Proc.devRef .tc main_arg4) := by
  simp only [opsWhere]; after_results_simp
theorem where_keep_arg5 : StableHlo.after opsWhere Wv (Proc.devRef .tc main_arg5) = Wv (Proc.devRef .tc main_arg5) := by
  simp only [opsWhere]; after_results_simp

/-! ## (3) The edge weights -/

theorem weights_of_factor : StableHlo.after opsWeights Wv (Proc.devRef .tc main_v31)
    = edgeWeights (F := Ideal) (Wv (Proc.devRef .tc main_v16)) (Wv (Proc.devRef .tc main_v3)) (Wv (Proc.devRef .tc main_v6)) := by
  simp only [opsWeights]; after_results_simp; rfl
theorem weights_keep_v3 : StableHlo.after opsWeights Wv (Proc.devRef .tc main_v3) = Wv (Proc.devRef .tc main_v3) := by
  simp only [opsWeights]; after_results_simp
theorem weights_keep_v6 : StableHlo.after opsWeights Wv (Proc.devRef .tc main_v6) = Wv (Proc.devRef .tc main_v6) := by
  simp only [opsWeights]; after_results_simp
theorem weights_keep_arg0 : StableHlo.after opsWeights Wv (Proc.devRef .tc main_arg0) = Wv (Proc.devRef .tc main_arg0) := by
  simp only [opsWeights]; after_results_simp
theorem weights_keep_arg2 : StableHlo.after opsWeights Wv (Proc.devRef .tc main_arg2) = Wv (Proc.devRef .tc main_arg2) := by
  simp only [opsWeights]; after_results_simp
theorem weights_keep_arg3 : StableHlo.after opsWeights Wv (Proc.devRef .tc main_arg3) = Wv (Proc.devRef .tc main_arg3) := by
  simp only [opsWeights]; after_results_simp
theorem weights_keep_arg4 : StableHlo.after opsWeights Wv (Proc.devRef .tc main_arg4) = Wv (Proc.devRef .tc main_arg4) := by
  simp only [opsWeights]; after_results_simp
theorem weights_keep_arg5 : StableHlo.after opsWeights Wv (Proc.devRef .tc main_arg5) = Wv (Proc.devRef .tc main_arg5) := by
  simp only [opsWeights]; after_results_simp

/-! ## (4) The first product, its spreading along the edges, and the first bias -/

theorem layer1_biased : StableHlo.after opsLayer1 Wv (Proc.devRef .tc main_v48)
    = biased48 (F := Ideal)
        (spreadAlong48 (F := Ideal) (lin1 (F := Ideal) (Wv (Proc.devRef .tc main_arg0)) (Wv (Proc.devRef .tc main_arg2)))
          (Wv (Proc.devRef .tc main_v3)) (Wv (Proc.devRef .tc main_v6)) (Wv (Proc.devRef .tc main_v31)))
        (Wv (Proc.devRef .tc main_arg3)) := by
  simp only [opsLayer1]; after_results_simp; rfl
theorem layer1_keep_v3 : StableHlo.after opsLayer1 Wv (Proc.devRef .tc main_v3) = Wv (Proc.devRef .tc main_v3) := by
  simp only [opsLayer1]; after_results_simp
theorem layer1_keep_v6 : StableHlo.after opsLayer1 Wv (Proc.devRef .tc main_v6) = Wv (Proc.devRef .tc main_v6) := by
  simp only [opsLayer1]; after_results_simp
theorem layer1_keep_v31 : StableHlo.after opsLayer1 Wv (Proc.devRef .tc main_v31) = Wv (Proc.devRef .tc main_v31) := by
  simp only [opsLayer1]; after_results_simp
theorem layer1_keep_arg4 : StableHlo.after opsLayer1 Wv (Proc.devRef .tc main_arg4) = Wv (Proc.devRef .tc main_arg4) := by
  simp only [opsLayer1]; after_results_simp
theorem layer1_keep_arg5 : StableHlo.after opsLayer1 Wv (Proc.devRef .tc main_arg5) = Wv (Proc.devRef .tc main_arg5) := by
  simp only [opsLayer1]; after_results_simp

/-! ## (5) The outlined positive part -/

theorem relu_positive : StableHlo.after opsRelu Wv (Proc.devRef .tc main_v49) = positivePart (F := Ideal) (Wv (Proc.devRef .tc main_v48)) := by
  simp only [opsRelu]; after_results_simp; rfl
theorem relu_keep_v3 : StableHlo.after opsRelu Wv (Proc.devRef .tc main_v3) = Wv (Proc.devRef .tc main_v3) := by
  simp only [opsRelu]; after_results_simp
theorem relu_keep_v6 : StableHlo.after opsRelu Wv (Proc.devRef .tc main_v6) = Wv (Proc.devRef .tc main_v6) := by
  simp only [opsRelu]; after_results_simp
theorem relu_keep_v31 : StableHlo.after opsRelu Wv (Proc.devRef .tc main_v31) = Wv (Proc.devRef .tc main_v31) := by
  simp only [opsRelu]; after_results_simp
theorem relu_keep_arg4 : StableHlo.after opsRelu Wv (Proc.devRef .tc main_arg4) = Wv (Proc.devRef .tc main_arg4) := by
  simp only [opsRelu]; after_results_simp
theorem relu_keep_arg5 : StableHlo.after opsRelu Wv (Proc.devRef .tc main_arg5) = Wv (Proc.devRef .tc main_arg5) := by
  simp only [opsRelu]; after_results_simp

/-! ## (6) The second product, its spreading along the edges, and the second bias -/

theorem layer2_logits : StableHlo.after opsLayer2 Wv (Proc.devRef .tc main_v66)
    = logits (F := Ideal)
        (spreadAlong16 (F := Ideal) (dense2 (F := Ideal) (Wv (Proc.devRef .tc main_v49)) (Wv (Proc.devRef .tc main_arg4)))
          (Wv (Proc.devRef .tc main_v3)) (Wv (Proc.devRef .tc main_v6)) (Wv (Proc.devRef .tc main_v31)))
        (Wv (Proc.devRef .tc main_arg5)) := by
  simp only [opsLayer2]; after_results_simp; rfl

/-! ## (7) The outlined row-wise log-softmax -/

/-- The reduction over a row is not opened: the typed references' transports are removed first, and what is left is the
    specification's term. -/
theorem rowMax_rows : StableHlo.after opsRowMax Wv (Proc.devRef .tc main_call2_v2) = rowMax (F := Ideal) (Wv (Proc.devRef .tc main_v66)) := by
  simp only [opsRowMax]; after_results_simp
  simp only [ofBuf_toBuf, ofBuf_logits]
  refine (toBuf_of main_call2_v2 _ _ _).trans ?_
  rfl
theorem rowMax_keep_v66 : StableHlo.after opsRowMax Wv (Proc.devRef .tc main_v66) = Wv (Proc.devRef .tc main_v66) := by
  simp only [opsRowMax]; after_results_simp
theorem shift_rows : StableHlo.after opsShift Wv (Proc.devRef .tc main_call2_v5)
    = shiftBy (F := Ideal) (Wv (Proc.devRef .tc main_v66)) (Wv (Proc.devRef .tc main_call2_v2)) := by
  simp only [opsShift]; after_results_simp; rfl
theorem logSum_rows : StableHlo.after opsLogSum Wv (Proc.devRef .tc main_call2_v9) = logSumOfExp (F := Ideal) (Wv (Proc.devRef .tc main_call2_v5)) := by
  simp only [opsLogSum]; after_results_simp
  simp only [ofBuf_toBuf, ofBuf_shifted]
  refine (toBuf_of main_call2_v9 _ _ _).trans ?_
  rfl
theorem logSum_keep_shifted : StableHlo.after opsLogSum Wv (Proc.devRef .tc main_call2_v5) = Wv (Proc.devRef .tc main_call2_v5) := by
  simp only [opsLogSum]; after_results_simp
theorem less_rows : StableHlo.after opsLess Wv (Proc.devRef .tc main_v67)
    = lessColumn (F := Ideal) (Wv (Proc.devRef .tc main_call2_v5)) (Wv (Proc.devRef .tc main_call2_v9)) := by
  simp only [opsLess]; after_results_simp; rfl

end Stretches

/-! ## The stretches chained -/

section Chain
variable (V : Valuation τ sig (Elt Ideal))

theorem prefix_src : StableHlo.after opsWeights (StableHlo.after opsWhere (StableHlo.after opsCount V)) (Proc.devRef .tc main_v3) = ReadP.val_main_v3 (F := Ideal) (V (Proc.devRef .tc main_arg1)) := by
  rw [weights_keep_v3, where_keep_v3, count_src]
theorem prefix_dst : StableHlo.after opsWeights (StableHlo.after opsWhere (StableHlo.after opsCount V)) (Proc.devRef .tc main_v6) = ReadP.val_main_v6 (F := Ideal) (V (Proc.devRef .tc main_arg1)) := by
  rw [weights_keep_v6, where_keep_v6, count_dst]
/-- The edge weights are the reference's own stage of the edge index array. -/
theorem prefix_weight : StableHlo.after opsWeights (StableHlo.after opsWhere (StableHlo.after opsCount V)) (Proc.devRef .tc main_v31) = ReadP.val_main_v31 (F := Ideal) (V (Proc.devRef .tc main_arg1)) := by
  rw [weights_of_factor, where_factor, where_keep_v3, where_keep_v6, count_src, count_dst, count_positive, count_rsqrt,
    count_zero]
  rfl
theorem prefix_arg0 : StableHlo.after opsWeights (StableHlo.after opsWhere (StableHlo.after opsCount V)) (Proc.devRef .tc main_arg0) = V (Proc.devRef .tc main_arg0) := by
  rw [weights_keep_arg0, where_keep_arg0, count_keep_arg0]
theorem prefix_arg2 : StableHlo.after opsWeights (StableHlo.after opsWhere (StableHlo.after opsCount V)) (Proc.devRef .tc main_arg2) = V (Proc.devRef .tc main_arg2) := by
  rw [weights_keep_arg2, where_keep_arg2, count_keep_arg2]
theorem prefix_arg3 : StableHlo.after opsWeights (StableHlo.after opsWhere (StableHlo.after opsCount V)) (Proc.devRef .tc main_arg3) = V (Proc.devRef .tc main_arg3) := by
  rw [weights_keep_arg3, where_keep_arg3, count_keep_arg3]
theorem prefix_arg4 : StableHlo.after opsWeights (StableHlo.after opsWhere (StableHlo.after opsCount V)) (Proc.devRef .tc main_arg4) = V (Proc.devRef .tc main_arg4) := by
  rw [weights_keep_arg4, where_keep_arg4, count_keep_arg4]
theorem prefix_arg5 : StableHlo.after opsWeights (StableHlo.after opsWhere (StableHlo.after opsCount V)) (Proc.devRef .tc main_arg5) = V (Proc.devRef .tc main_arg5) := by
  rw [weights_keep_arg5, where_keep_arg5, count_keep_arg5]

/-- The reference's result buffer after @main's operations, from any contents, is the network of the six arguments
    found in the buffers. -/
theorem result : StableHlo.after (ValueP.ops (F := Ideal)) V (Proc.devRef .tc main_v67)
    = net (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_split, after_app, after_app, after_app, after_app, after_app, after_app, after_app, after_app, after_app]
  rw [less_rows, logSum_rows, logSum_keep_shifted, shift_rows, rowMax_rows, rowMax_keep_v66, layer2_logits, relu_positive, relu_keep_v3, relu_keep_v6, relu_keep_v31, relu_keep_arg4,
    relu_keep_arg5, layer1_biased, layer1_keep_v3, layer1_keep_v6, layer1_keep_v31, layer1_keep_arg4, layer1_keep_arg5]
  rw [prefix_src, prefix_dst, prefix_weight, prefix_arg0, prefix_arg2, prefix_arg3, prefix_arg4, prefix_arg5]
  rfl

end Chain

end Cert.Gcn.RefSide

end
-- ==== Proof.RefRunValue.lean ====
/-
  The reference program's run: its @main is a straight line of 101 host operations, so every weakly fair execution
  terminates with each buffer at the fold of the operations over the launch contents; the result buffer's fold is the
  two-layer graph convolution of the six arguments (read stretch by stretch in RefValue), and no operation writes an
  argument.
-/
import proofs.«105810_j64484638982596_1_alg».proof.Proof.RefRun
import proofs.«105810_j64484638982596_1_alg».proof.Proof.RefValue
import proofs.«105810_j64484638982596_1_alg».proof.Proof.Spec
import Idealize.ShloMosaic.Lib.StableHlo.Run

noncomputable section

namespace Cert.Gcn.RefSide

open Cert.ReferenceIdeal Cert.ReferenceIdeal.Gen Cert.ReferenceIdeal.ValueP
open Idealize.ShloMosaic Idealize.ShloMosaic.TcCoe Idealize.SL.Sem Idealize.ShloMosaic.StableHlo

set_option maxRecDepth 65536 in
set_option maxHeartbeats 4000000 in
/-- Every weakly fair execution of the reference's @main terminates, faults nowhere, and ends with the result array at
    the network of the launched arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = Cert.Gcn.net (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.RefSide

end
-- ==== Proof.lean ====
/-
  The certificate of a two-layer graph convolution (100000 nodes, 1600000 edges, features 128 → 48 → 16) computed by
  three tiled kernels — x · W1; relu (· + b1) · W2; row-wise log-softmax of (· + b2) — with the normalised spreading
  along the edges done by host gather / scatter-add between them, against the plain reference
  log_softmax (Â · (relu (Â · (x · W1) + b1) · W2) + b2).

  On the extended reals the two programs compute the same array. The edge lists and the edge weights come from the same
  host operations on both sides. A kernel's matrix-unit product into a zero accumulator of operands narrowed to bf16 is,
  entry by entry, the finite sum Σ_k a[r,k] · w[k,j] of the host's dot_general (narrowing is the identity there; sums
  on the extended reals are commutative and associative, so no finiteness is used); the kernel's lane maximum and
  lane sum of a block of rows are the host's row maximum and row sum; each region's ten blocks of 10000 rows tile its
  output. The frames of the two kernel programs are the generated ones; the reference's run is its straight line of host
  operations. The ideal pass rewrote nothing, so the idealization is the program's own text.
-/
import proofs.«105810_j64484638982596_1_alg».proof.Defs
import proofs.«105810_j64484638982596_1_alg».proof.Proof.Gen.Kernel
import proofs.«105810_j64484638982596_1_alg».proof.Proof.Gen.Kernel.Frame
import proofs.«105810_j64484638982596_1_alg».proof.Proof.Gen.KernelIdeal
import proofs.«105810_j64484638982596_1_alg».proof.Proof.Gen.KernelIdeal.Frame
import proofs.«105810_j64484638982596_1_alg».proof.Proof.Gen.ReferenceIdeal
import proofs.«105810_j64484638982596_1_alg».proof.Proof.Gen.Pre_finite_inputs
import proofs.«105810_j64484638982596_1_alg».proof.Proof.NamedRun
import proofs.«105810_j64484638982596_1_alg».proof.Proof.KernelValue
import proofs.«105810_j64484638982596_1_alg».proof.Proof.RefRunValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.Gcn.RefSide.run m ρ)

/-- The ideal pass rewrote no operation. -/
theorem preserves : Cert.preserves_Kernel_KernelIdeal := trivial

/-- Both idealized programs end with the result array at the network of the (agreeing) arguments. -/
theorem algebraic : Cert.algebraic_KernelIdeal_ReferenceIdeal := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.KernelValue.result m ρ c), (h c).2⟩)
      (Cert.KernelIdeal.NamedRun.run (F := Ideal) m ρ)
  · refine (θ_run Cert.ReferenceIdeal.defs _ _).mono (fun _ h c => ⟨(h c).1.trans ?_, (h c).2⟩)
      (Cert.Gcn.RefSide.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
